-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1200000 : Shape := ⟨2, ![2, 1200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg6 : FVec F S64 .f32) (main_arg7 : FVec F S64x32 .f32) (main_arg8 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x128 .f32) (main_arg1 : IVec S2x1200000 32) (main_arg2 : IVec S100000 32) (main_arg3 : FVec F S128x64 .f32) (main_arg4 : FVec F S64 .f32) (main_arg5 : FVec F S64x64 .f32) (main_arg6 : FVec F S64 .f32) (main_arg7 : FVec F S64x32 .f32) (main_arg8 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x128 : Shape := ⟨2, ![100000, 128]⟩
abbrev S2x1200000 : Shape := ⟨2, ![2, 1200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S100000x64 : Shape := ⟨2, ![100000, 64]⟩
abbrev S4000x128 : Shape := ⟨2, ![4000, 128]⟩
abbrev S4000x64 : Shape := ⟨2, ![4000, 64]⟩
abbrev S1300000x64 : Shape := ⟨2, ![1300000, 64]⟩
abbrev S1x64 : Shape := ⟨2, ![1, 64]⟩
abbrev S100000x1 : Shape := ⟨2, ![100000, 1]⟩
abbrev S64x1 : Shape := ⟨2, ![64, 1]⟩
abbrev S1x32 : Shape := ⟨2, ![1, 32]⟩

abbrev nBuf : Space → Nat
  | .hbm => 105
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1200000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S100000, .i32⟩
  | .hbm, ⟨10, _⟩ => ⟨S1x1200000, .i32⟩
  | .hbm, ⟨11, _⟩ => ⟨S1200000, .i32⟩
  | .hbm, ⟨12, _⟩ => ⟨S1300000, .i32⟩
  | .hbm, ⟨13, _⟩ => ⟨S1x1200000, .i32⟩
  | .hbm, ⟨14, _⟩ => ⟨S1200000, .i32⟩
  | .hbm, ⟨15, _⟩ => ⟨S1300000, .i32⟩
  | .hbm, ⟨16, _⟩ => ⟨S_, .f32⟩
  | .hbm, ⟨17, _⟩ => ⟨S1300000, .f32⟩
  | .hbm, ⟨18, _⟩ => ⟨S_, .f32⟩
  | .hbm, ⟨19, _⟩ => ⟨S100000, .f32⟩
  | .hbm, ⟨20, _⟩ => ⟨S1300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1300000, .i32⟩
  | .hbm, ⟨32, _⟩ => ⟨S1300000, .i1⟩
  | .hbm, ⟨33, _⟩ => ⟨S_, .i32⟩
  | .hbm, ⟨34, _⟩ => ⟨S1300000, .i32⟩
  | .hbm, ⟨35, _⟩ => ⟨S1300000, .i32⟩
  | .hbm, ⟨36, _⟩ => ⟨S1300000, .i32⟩
  | .hbm, ⟨37, _⟩ => ⟨S1300000x1, .i32⟩
  | .hbm, ⟨38, _⟩ => ⟨S1300000, .f32⟩
  | .hbm, ⟨39, _⟩ => ⟨S_, .i32⟩
  | .hbm, ⟨40, _⟩ => ⟨S1300000, .i32⟩
  | .hbm, ⟨41, _⟩ => ⟨S1300000, .i1⟩
  | .hbm, ⟨42, _⟩ => ⟨S_, .i32⟩
  | .hbm, ⟨43, _⟩ => ⟨S1300000, .i32⟩
  | .hbm, ⟨44, _⟩ => ⟨S1300000, .i32⟩
  | .hbm, ⟨45, _⟩ => ⟨S1300000, .i32⟩
  | .hbm, ⟨46, _⟩ => ⟨S1300000x1, .i32⟩
  | .hbm, ⟨47, _⟩ => ⟨S1300000, .f32⟩
  | .hbm, ⟨48, _⟩ => ⟨S1300000, .f32⟩
  | .hbm, ⟨49, _⟩ => ⟨S100000x64, .f32⟩
  | .hbm, ⟨50, _⟩ => ⟨S_, .i32⟩
  | .hbm, ⟨51, _⟩ => ⟨S1300000, .i32⟩
  | .hbm, ⟨52, _⟩ => ⟨S1300000, .i1⟩
  | .hbm, ⟨53, _⟩ => ⟨S_, .i32⟩
  | .hbm, ⟨54, _⟩ => ⟨S1300000, .i32⟩
  | .hbm, ⟨55, _⟩ => ⟨S1300000, .i32⟩
  | .hbm, ⟨56, _⟩ => ⟨S1300000, .i32⟩
  | .hbm, ⟨57, _⟩ => ⟨S1300000x1, .i32⟩
  | .hbm, ⟨58, _⟩ => ⟨S1300000x64, .f32⟩
  | .hbm, ⟨59, _⟩ => ⟨S1300000x1, .f32⟩
  | .hbm, ⟨60, _⟩ => ⟨S1300000x64, .f32⟩
  | .hbm, ⟨61, _⟩ => ⟨S1300000x64, .f32⟩
  | .hbm, ⟨62, _⟩ => ⟨S_, .f32⟩
  | .hbm, ⟨63, _⟩ => ⟨S100000x64, .f32⟩
  | .hbm, ⟨64, _⟩ => ⟨S1300000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .i32⟩
  | .hbm, ⟨70, _⟩ => ⟨S1300000, .i32⟩
  | .hbm, ⟨71, _⟩ => ⟨S1300000, .i1⟩
  | .hbm, ⟨72, _⟩ => ⟨S_, .i32⟩
  | .hbm, ⟨73, _⟩ => ⟨S1300000, .i32⟩
  | .hbm, ⟨74, _⟩ => ⟨S1300000, .i32⟩
  | .hbm, ⟨75, _⟩ => ⟨S1300000, .i32⟩
  | .hbm, ⟨76, _⟩ => ⟨S1300000x1, .i32⟩
  | .hbm, ⟨77, _⟩ => ⟨S1300000x64, .f32⟩
  | .hbm, ⟨78, _⟩ => ⟨S1300000x1, .f32⟩
  | .hbm, ⟨79, _⟩ => ⟨S1300000x64, .f32⟩
  | .hbm, ⟨80, _⟩ => ⟨S1300000x64, .f32⟩
  | .hbm, ⟨81, _⟩ => ⟨S_, .f32⟩
  | .hbm, ⟨82, _⟩ => ⟨S100000x64, .f32⟩
  | .hbm, ⟨83, _⟩ => ⟨S1300000x1, .i32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S_, .f32⟩
  | .hbm, ⟨88, _⟩ => ⟨S64x64, .f32⟩
  | .hbm, ⟨89, _⟩ => ⟨S100000x1, .i32⟩
  | .hbm, ⟨90, _⟩ => ⟨S64x64, .f32⟩
  | .hbm, ⟨91, _⟩ => ⟨S_, .f32⟩
  | .hbm, ⟨92, _⟩ => ⟨S100000, .f32⟩
  | .hbm, ⟨93, _⟩ => ⟨S_, .f32⟩
  | .hbm, ⟨94, _⟩ => ⟨S64, .f32⟩
  | .hbm, ⟨95, _⟩ => ⟨S100000x1, .i32⟩
  | .hbm, ⟨96, _⟩ => ⟨S64, .f32⟩
  | .hbm, ⟨97, _⟩ => ⟨S_, .f32⟩
  | .hbm, ⟨98, _⟩ => ⟨S64, .f32⟩
  | .hbm, ⟨99, _⟩ => ⟨S64, .f32⟩
  | .hbm, ⟨100, _⟩ => ⟨S64x1, .f32⟩
  | .hbm, ⟨101, _⟩ => ⟨S64x64, .f32⟩
  | .hbm, ⟨102, _⟩ => ⟨S64x64, .f32⟩
  | .hbm, ⟨103, _⟩ => ⟨S1x32, .f32⟩
  | .hbm, ⟨104, _⟩ => ⟨S64x32, .f32⟩
  | .local _ .vmem, ⟨0, _⟩ => ⟨S4000x128, .f32⟩
  | .local _ .vmem, ⟨1, _⟩ => ⟨S4000x128, .f32⟩
  | .local _ .vmem, ⟨2, _⟩ => ⟨S128x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S1x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S64x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S1x64, .f32⟩
  | .local _ .vmem, ⟨18, _⟩ => ⟨S4000x64, .f32⟩
  | .local _ .vmem, ⟨19, _⟩ => ⟨S4000x64, .f32⟩
  | .local _ .vmem, ⟨20, _⟩ => ⟨S64x64, .f32⟩
  | .local _ .vmem, ⟨21, _⟩ => ⟨S64x32, .f32⟩
  | .local _ .vmem, ⟨22, _⟩ => ⟨S1x32, .f32⟩
  | .local _ .vmem, ⟨23, _⟩ => ⟨S64x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_cst_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_15 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  shapeCasts_S32_S1x32 : S32.ShapeCasts S1x32
  shapeCasts_S64x64_S64x64 : S64x64.ShapeCasts S64x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S4000x128_S128x64_S4000x64_1_0_0_1_n_n_wf : DotDims.WF S4000x128 S128x64 S4000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S4000x64_S64x64_S4000x64_1_0_0_1_n_n_wf : DotDims.WF S4000x64 S64x64 S4000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x32_S64x32_1_0_0_1_n_n_wf : DotDims.WF S64x64 S64x32 S64x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .f32 = 32 ∨ (Rect.block (s := S100000x64) S4000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S100000x64.size a
  hwx2_2 : ∀ i : grid2.Coords, EltTy.bits .f32 = 32 ∨ (Rect.block (s := S100000x64) S4000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x64.size a ≤ S100000x64.size a
  hwx3_2 : ∀ i : grid3.Coords, EltTy.bits .f32 = 32 ∨ (Rect.block (s := S100000x64) S4000x64.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x64.size a ≤ S64x64.size a
  hwx4_0 : ∀ i : grid4.Coords, EltTy.bits .f32 = 32 ∨ (Rect.block (s := S64x64) S64x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x32.size a ≤ S64x32.size a
  hwx4_3 : ∀ i : grid4.Coords, EltTy.bits .f32 = 32 ∨ (Rect.block (s := S64x32) S64x32.size (cc4_transform_3 i) (hinb4_3 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S4000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S4000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S4000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v73) S64x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v75) S64x32.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1200000 : Shape := ⟨2, ![2, 1200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S1x1200000 : Shape := ⟨2, ![1, 1200000]⟩
abbrev S1200000 : Shape := ⟨1, ![1200000]⟩
abbrev S1300000 : Shape := ⟨1, ![1300000]⟩
abbrev S100000x64 : Shape := ⟨2, ![100000, 64]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩
abbrev S100000x1 : Shape := ⟨2, ![100000, 1]⟩
abbrev S64x1 : Shape := ⟨2, ![64, 1]⟩
abbrev S1x32 : Shape := ⟨2, ![1, 32]⟩

abbrev nBuf : Space → Nat
  | .hbm => 151
  | .vmem => 0
  | .smem => 0
  | _ => 0

abbrev hbmTy0_0 (i : Nat) : BufTy := match i % 128 with
  | 0 => ⟨S100000x128, .f32⟩
  | 1 => ⟨S2x1200000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x32, .f32⟩
  | 8 => ⟨S32, .f32⟩
  | 9 => ⟨S100000, .i32⟩
  | 10 => ⟨S1x1200000, .i32⟩
  | 11 => ⟨S1200000, .i32⟩
  | 12 => ⟨S1300000, .i32⟩
  | 13 => ⟨S1x1200000, .i32⟩
  | 14 => ⟨S1200000, .i32⟩
  | 15 => ⟨S1300000, .i32⟩
  | 16 => ⟨S100000x64, .f32⟩
  | 17 => ⟨S_, .f32⟩
  | 18 => ⟨S1300000, .f32⟩
  | 19 => ⟨S_, .f32⟩
  | 20 => ⟨S100000, .f32⟩
  | 21 => ⟨S1300000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1300000, .i32⟩
  | 33 => ⟨S1300000, .i1⟩
  | 34 => ⟨S_, .i32⟩
  | 35 => ⟨S1300000, .i32⟩
  | 36 => ⟨S1300000, .i32⟩
  | 37 => ⟨S1300000, .i32⟩
  | 38 => ⟨S1300000x1, .i32⟩
  | 39 => ⟨S1300000, .f32⟩
  | 40 => ⟨S_, .i32⟩
  | 41 => ⟨S1300000, .i32⟩
  | 42 => ⟨S1300000, .i1⟩
  | 43 => ⟨S_, .i32⟩
  | 44 => ⟨S1300000, .i32⟩
  | 45 => ⟨S1300000, .i32⟩
  | 46 => ⟨S1300000, .i32⟩
  | 47 => ⟨S1300000x1, .i32⟩
  | 48 => ⟨S1300000, .f32⟩
  | 49 => ⟨S1300000, .f32⟩
  | 50 => ⟨S_, .i32⟩
  | 51 => ⟨S1300000, .i32⟩
  | 52 => ⟨S1300000, .i1⟩
  | 53 => ⟨S_, .i32⟩
  | 54 => ⟨S1300000, .i32⟩
  | 55 => ⟨S1300000, .i32⟩
  | 56 => ⟨S1300000, .i32⟩
  | 57 => ⟨S1300000x1, .i32⟩
  | 58 => ⟨S1300000x64, .f32⟩
  | 59 => ⟨S1300000x1, .f32⟩
  | 60 => ⟨S1300000x64, .f32⟩
  | 61 => ⟨S1300000x64, .f32⟩
  | 62 => ⟨S_, .f32⟩
  | 63 => ⟨S100000x64, .f32⟩
  | 64 => ⟨S1300000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x64, .f32⟩
  | 73 => ⟨S_, .f32⟩
  | 74 => ⟨S1300000, .f32⟩
  | 75 => ⟨S_, .f32⟩
  | 76 => ⟨S100000, .f32⟩
  | 77 => ⟨S1300000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S1300000, .i32⟩
  | 89 => ⟨S1300000, .i1⟩
  | 90 => ⟨S_, .i32⟩
  | 91 => ⟨S1300000, .i32⟩
  | 92 => ⟨S1300000, .i32⟩
  | 93 => ⟨S1300000, .i32⟩
  | 94 => ⟨S1300000x1, .i32⟩
  | 95 => ⟨S1300000, .f32⟩
  | 96 => ⟨S_, .i32⟩
  | 97 => ⟨S1300000, .i32⟩
  | 98 => ⟨S1300000, .i1⟩
  | 99 => ⟨S_, .i32⟩
  | 100 => ⟨S1300000, .i32⟩
  | 101 => ⟨S1300000, .i32⟩
  | 102 => ⟨S1300000, .i32⟩
  | 103 => ⟨S1300000x1, .i32⟩
  | 104 => ⟨S1300000, .f32⟩
  | 105 => ⟨S1300000, .f32⟩
  | 106 => ⟨S_, .i32⟩
  | 107 => ⟨S1300000, .i32⟩
  | 108 => ⟨S1300000, .i1⟩
  | 109 => ⟨S_, .i32⟩
  | 110 => ⟨S1300000, .i32⟩
  | 111 => ⟨S1300000, .i32⟩
  | 112 => ⟨S1300000, .i32⟩
  | 113 => ⟨S1300000x1, .i32⟩
  | 114 => ⟨S1300000x64, .f32⟩
  | 115 => ⟨S1300000x1, .f32⟩
  | 116 => ⟨S1300000x64, .f32⟩
  | 117 => ⟨S1300000x64, .f32⟩
  | 118 => ⟨S_, .f32⟩
  | 119 => ⟨S100000x64, .f32⟩
  | 120 => ⟨S1300000x1, .i32⟩
  | 121 => ⟨S100000x64, .f32⟩
  | 122 => ⟨S1x64, .f32⟩
  | 123 => ⟨S100000x64, .f32⟩
  | 124 => ⟨S100000x64, .f32⟩
  | 125 => ⟨S_, .f32⟩
  | 126 => ⟨S100000x64, .f32⟩
  | 127 => ⟨S100000x64, .f32⟩
  | _ => ⟨S100000x128, .f32⟩

abbrev hbmTy0_1 (i : Nat) : BufTy := match i % 128 with
  | 0 => ⟨S_, .f32⟩
  | 1 => ⟨S64x64, .f32⟩
  | 2 => ⟨S100000x1, .i32⟩
  | 3 => ⟨S64x64, .f32⟩
  | 4 => ⟨S_, .f32⟩
  | 5 => ⟨S100000, .f32⟩
  | 6 => ⟨S_, .f32⟩
  | 7 => ⟨S64, .f32⟩
  | 8 => ⟨S100000x1, .i32⟩
  | 9 => ⟨S64, .f32⟩
  | 10 => ⟨S_, .f32⟩
  | 11 => ⟨S64, .f32⟩
  | 12 => ⟨S64, .f32⟩
  | 13 => ⟨S64x1, .f32⟩
  | 14 => ⟨S64x64, .f32⟩
  | 15 => ⟨S64x64, .f32⟩
  | 16 => ⟨S64x32, .f32⟩
  | 17 => ⟨S1x32, .f32⟩
  | 18 => ⟨S64x32, .f32⟩
  | 19 => ⟨S64x32, .f32⟩
  | 20 => ⟨S_, .f32⟩
  | 21 => ⟨S64x32, .f32⟩
  | 22 => ⟨S64x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v56 : Ref sig .tc := ⟨.hbm, 86, rfl⟩
abbrev main_c_13 : Ref sig .tc := ⟨.hbm, 87, rfl⟩
abbrev main_v57 : Ref sig .tc := ⟨.hbm, 88, rfl⟩
abbrev main_v58 : Ref sig .tc := ⟨.hbm, 89, rfl⟩
abbrev main_c_14 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_15 : Ref sig .tc := ⟨.hbm, 96, rfl⟩
abbrev main_v64 : Ref sig .tc := ⟨.hbm, 97, rfl⟩
abbrev main_v65 : Ref sig .tc := ⟨.hbm, 98, rfl⟩
abbrev main_c_16 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_17 : Ref sig .tc := ⟨.hbm, 106, rfl⟩
abbrev main_v72 : Ref sig .tc := ⟨.hbm, 107, rfl⟩
abbrev main_v73 : Ref sig .tc := ⟨.hbm, 108, rfl⟩
abbrev main_c_18 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_19 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_call3_cst : Ref sig .tc := ⟨.hbm, 125, rfl⟩
abbrev main_call3_v0 : Ref sig .tc := ⟨.hbm, 126, rfl⟩
abbrev main_v88 : Ref sig .tc := ⟨.hbm, 127, rfl⟩
abbrev main_cst_20 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_21 : Ref sig .tc := ⟨.hbm, 132, rfl⟩
abbrev main_v92 : Ref sig .tc := ⟨.hbm, 133, rfl⟩
abbrev main_cst_22 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_23 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_call4_cst : Ref sig .tc := ⟨.hbm, 148, rfl⟩
abbrev main_call4_v0 : Ref sig .tc := ⟨.hbm, 149, rfl⟩
abbrev main_v105 : Ref sig .tc := ⟨.hbm, 150, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  dot_S100000x128_S128x64_S100000x64_1_0_0_1_n_n_wf : DotDims.WF S100000x128 S128x64 S100000x64 [1] [0] [0] [1] [] []
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S100000x64_S64x64_S100000x64_1_0_0_1_n_n_wf : DotDims.WF S100000x64 S64x64 S100000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x32_S64x32_1_0_0_1_n_n_wf : DotDims.WF S64x64 S64x32 S64x32 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf

class Facts : Prop extends Facts₀ where

variable [Facts]
-- ==== Proof.Net.lean ====
/-
  The network the two programs compute, stage by stage, as functions of the argument arrays.

  A graph of 100000 nodes and 1200000 directed edges, given as a [2, 1200000] array of endpoints, gets one self loop
  per node: `src` and `dst` are the 1300000 sources and targets. The degree of a node counts the edges that end
  in it (a scatter-add of ones); `dinv` is its inverse square root where the degree is positive and 0 elsewhere;
  the weight of an edge, `norm`, is the product of `dinv` at its two ends (an index is first brought into range
  the way jnp does for a negative one, `wrap`). One graph convolution multiplies the node features by a weight
  matrix, gathers the product at each edge's source, scales it by the edge's weight and adds it into the edge's
  target (`agg`), then adds a bias row to every node and clamps at zero (`biasClamp`). After two convolutions the
  node features are summed per graph and divided by the graph's node count, at least 1 (`pool`), and a last dense
  layer with bias and clamp gives the [64, 32] result (`fc`).

  Every stage is spelt with the host's operations exactly as the reference program prints them, so that the
  reference's result term is `out` of its arguments by unfolding; the pipelined program's regions are shown to
  compute the three dense stages (`mm1`, `mm2`, `biasClamp`, `fc`) tile by tile.
-/
import proofs.«147617_j81080392614195_1_alg».proof.Proof.Gen.ReferenceIdeal
import Idealize.ShloMosaic.PureOps.Ideal

noncomputable section

namespace Cert.ReferenceIdeal.Net

open Cert.ReferenceIdeal Cert.ReferenceIdeal.Gen Idealize.ShloMosaic Idealize.ShloMosaic.TcCoe

variable (F : FTy → Type) [FloatOps F]

/-- The sources of the edges, then of the self loops. -/
def src (x1 : (⟨S2x1200000, .i32⟩ : BufTy).Contents (Elt F)) : (⟨S1300000, .i32⟩ : BufTy).Contents (Elt F) :=
  (concatenate S1300000 0 [⟨S1200000, (shapeCast _ (extractStridedSlice S1x1200000 ![0, 0] x1 slices_S2x1200000_S1x1200000_0_0) shapeCasts_S1x1200000_S1200000)⟩, ⟨S100000, (iotaInDim S100000 32 0)⟩] concatenates_S1200000_S100000_S1300000_d0)

/-- The targets of the edges, then of the self loops. -/
def dst (x1 : (⟨S2x1200000, .i32⟩ : BufTy).Contents (Elt F)) : (⟨S1300000, .i32⟩ : BufTy).Contents (Elt F) :=
  (concatenate S1300000 0 [⟨S1200000, (shapeCast _ (extractStridedSlice S1x1200000 ![1, 0] x1 slices_S2x1200000_S1x1200000_1_0) shapeCasts_S1x1200000_S1200000)⟩, ⟨S100000, (iotaInDim S100000 32 0)⟩] concatenates_S1200000_S100000_S1300000_d0)

/-- A node index brought into range: a negative one is counted from the end. -/
def wrap (e : (⟨S1300000, .i32⟩ : BufTy).Contents (Elt F)) : (⟨S1300000, .i32⟩ : BufTy).Contents (Elt F) :=
  (select (cmpi .slt e (broadcastInDim S1300000 ![] bcast_S_S1300000 (constantI S_ 32 0#32))) (addi e (broadcastInDim S1300000 ![] bcast_S_S1300000 (constantI S_ 32 100000#32))) e)

/-- The number of given edge targets equal to each node. -/
def degOf (d : (⟨S1300000, .i32⟩ : BufTy).Contents (Elt F)) : (⟨S100000, .f32⟩ : BufTy).Contents (Elt F) :=
  (Host.scatterAdd scatter_S100000_S1300000x1_S1300000_n_0_0_1 (broadcastInDim S100000 ![] bcast_S_S100000 (constant S_ .f32 0x00000000#32)) (broadcastInDim S1300000x1 ![0] bcast_S1300000_S1300000x1_0 d) (broadcastInDim S1300000 ![] bcast_S_S1300000 (constant S_ .f32 0x3F800000#32)))

/-- The number of edges ending in each node. -/
def deg (x1 : (⟨S2x1200000, .i32⟩ : BufTy).Contents (Elt F)) : (⟨S100000, .f32⟩ : BufTy).Contents (Elt F) :=
  degOf F (dst F x1)

/-- Where a degree is positive. -/
def gtZero (dg : (⟨S100000, .f32⟩ : BufTy).Contents (Elt F)) : (⟨S100000, .i1⟩ : BufTy).Contents (Elt F) :=
  (cmpf (F := F) .ogt dg (broadcastInDim S100000 ![] bcast_S_S100000 (constant S_ .f32 0x00000000#32)))

/-- A choice between an array and a broadcast scalar, as jnp.where makes it. -/
def whereOf (p : (⟨S100000, .i1⟩ : BufTy).Contents (Elt F)) (a : (⟨S100000, .f32⟩ : BufTy).Contents (Elt F)) (z : (⟨S_, .f32⟩ : BufTy).Contents (Elt F)) : (⟨S100000, .f32⟩ : BufTy).Contents (Elt F) :=
  (select p a (broadcastInDim S100000 ![] bcast_S_S100000 (id z)))

/-- The inverse square root of a degree where it is positive, zero elsewhere. -/
def dinvOf (dg : (⟨S100000, .f32⟩ : BufTy).Contents (Elt F)) : (⟨S100000, .f32⟩ : BufTy).Contents (Elt F) :=
  whereOf F (gtZero F dg) (Host.rsqrt dg) (constant S_ .f32 0x00000000#32)

/-- The same of the graph's degrees. -/
def dinv (x1 : (⟨S2x1200000, .i32⟩ : BufTy).Contents (Elt F)) : (⟨S100000, .f32⟩ : BufTy).Contents (Elt F) :=
  dinvOf F (deg F x1)

/-- The weight of each given edge: the product of a node weight at its source and at its target. -/
def normOf (dv : (⟨S100000, .f32⟩ : BufTy).Contents (Elt F)) (s d : (⟨S1300000, .i32⟩ : BufTy).Contents (Elt F)) : (⟨S1300000, .f32⟩ : BufTy).Contents (Elt F) :=
  (mulf (Host.gather gather_S100000_S1300000x1_S1300000_n_0_n_n_0_1_1 dv (broadcastInDim S1300000x1 ![0] bcast_S1300000_S1300000x1_0 (wrap F s))) (Host.gather gather_S100000_S1300000x1_S1300000_n_0_n_n_0_1_1 dv (broadcastInDim S1300000x1 ![0] bcast_S1300000_S1300000x1_0 (wrap F d))))

/-- The weight of each edge: the product of `dinv` at its source and at its target. -/
def norm (x1 : (⟨S2x1200000, .i32⟩ : BufTy).Contents (Elt F)) : (⟨S1300000, .f32⟩ : BufTy).Contents (Elt F) :=
  normOf F (dinv F x1) (src F x1) (dst F x1)

/-- Node features sent along given edges with given weights: gathered at the source, scaled by the edge's weight, added
    into the target. -/
def aggOf (h : (⟨S100000x64, .f32⟩ : BufTy).Contents (Elt F)) (s d : (⟨S1300000, .i32⟩ : BufTy).Contents (Elt F)) (n : (⟨S1300000, .f32⟩ : BufTy).Contents (Elt F)) : (⟨S100000x64, .f32⟩ : BufTy).Contents (Elt F) :=
  (Host.scatterAdd scatter_S100000x64_S1300000x1_S1300000x64_1_0_0_1 (broadcastInDim S100000x64 ![] bcast_S_S100000x64 (constant S_ .f32 0x00000000#32)) (broadcastInDim S1300000x1 ![0] bcast_S1300000_S1300000x1_0 d) (mulf (Host.gather gather_S100000x64_S1300000x1_S1300000x64_1_0_n_n_0_1_164 h (broadcastInDim S1300000x1 ![0] bcast_S1300000_S1300000x1_0 (wrap F s))) (broadcastInDim S1300000x64 ![0, 1] bcast_S1300000x1_S1300000x64_0_1 (broadcastInDim S1300000x1 ![0] bcast_S1300000_S1300000x1_0 n))))

/-- Node features sent along the graph's edges. -/
def agg (h : (⟨S100000x64, .f32⟩ : BufTy).Contents (Elt F)) (x1 : (⟨S2x1200000, .i32⟩ : BufTy).Contents (Elt F)) : (⟨S100000x64, .f32⟩ : BufTy).Contents (Elt F) :=
  aggOf F h (src F x1) (dst F x1) (norm F x1)

/-- A bias vector as a one-row matrix. -/
def row64 (b : (⟨S64, .f32⟩ : BufTy).Contents (Elt F)) : (⟨S1x64, .f32⟩ : BufTy).Contents (Elt F) :=
  (broadcastInDim S1x64 ![1] bcast_S64_S1x64_1 b)

/-- The same for the last layer's 32 outputs. -/
def row32 (b : (⟨S32, .f32⟩ : BufTy).Contents (Elt F)) : (⟨S1x32, .f32⟩ : BufTy).Contents (Elt F) :=
  (broadcastInDim S1x32 ![1] bcast_S32_S1x32_1 b)

/-- A bias row added to every node's features, clamped below at zero. -/
def biasClamp (a : (⟨S100000x64, .f32⟩ : BufTy).Contents (Elt F)) (r : (⟨S1x64, .f32⟩ : BufTy).Contents (Elt F)) : (⟨S100000x64, .f32⟩ : BufTy).Contents (Elt F) :=
  (maximumf (addf a (broadcastInDim S100000x64 ![0, 1] bcast_S1x64_S100000x64_0_1 r)) (broadcastInDim S100000x64 ![] bcast_S_S100000x64 (constant S_ .f32 0x00000000#32)))

/-- The first layer's product with its weights. -/
def mm1 (x0 : (⟨S100000x128, .f32⟩ : BufTy).Contents (Elt F)) (x3 : (⟨S128x64, .f32⟩ : BufTy).Contents (Elt F)) : (⟨S100000x64, .f32⟩ : BufTy).Contents (Elt F) :=
  (Host.dotGeneral dot_S100000x128_S128x64_S100000x64_1_0_0_1_n_n none x0 x3)

/-- The second layer's product with its weights. -/
def mm2 (h : (⟨S100000x64, .f32⟩ : BufTy).Contents (Elt F)) (x5 : (⟨S64x64, .f32⟩ : BufTy).Contents (Elt F)) : (⟨S100000x64, .f32⟩ : BufTy).Contents (Elt F) :=
  (Host.dotGeneral dot_S100000x64_S64x64_S100000x64_1_0_0_1_n_n none h x5)

/-- The mean of the node features over each graph (a graph without nodes divides by 1). -/
def pool (h : (⟨S100000x64, .f32⟩ : BufTy).Contents (Elt F)) (x2 : (⟨S100000, .i32⟩ : BufTy).Contents (Elt F)) : (⟨S64x64, .f32⟩ : BufTy).Contents (Elt F) :=
  (Host.divf (Host.scatterAdd scatter_S64x64_S100000x1_S100000x64_1_0_0_1 (broadcastInDim S64x64 ![] bcast_S_S64x64 (constant S_ .f32 0x00000000#32)) (broadcastInDim S100000x1 ![0] bcast_S100000_S100000x1_0 x2) h) (broadcastInDim S64x64 ![0, 1] bcast_S64x1_S64x64_0_1 (broadcastInDim S64x1 ![0] bcast_S64_S64x1_0 (maximumf (Host.scatterAdd scatter_S64_S100000x1_S100000_n_0_0_1 (broadcastInDim S64 ![] bcast_S_S64 (constant S_ .f32 0x00000000#32)) (broadcastInDim S100000x1 ![0] bcast_S100000_S100000x1_0 x2) (broadcastInDim S100000 ![] bcast_S_S100000 (constant S_ .f32 0x3F800000#32))) (broadcastInDim S64 ![] bcast_S_S64 (constant S_ .f32 0x3F800000#32))))))

/-- The last dense layer: product, bias row, clamp. -/
def fc (p : (⟨S64x64, .f32⟩ : BufTy).Contents (Elt F)) (w : (⟨S64x32, .f32⟩ : BufTy).Contents (Elt F)) (r : (⟨S1x32, .f32⟩ : BufTy).Contents (Elt F)) : (⟨S64x32, .f32⟩ : BufTy).Contents (Elt F) :=
  maximumf (addf (Host.dotGeneral dot_S64x64_S64x32_S64x32_1_0_0_1_n_n none p w) (broadcastInDim S64x32 ![0, 1] bcast_S1x32_S64x32_0_1 r)) (broadcastInDim S64x32 ![] bcast_S_S64x32 (constant S_ .f32 0x00000000#32))

/-- The whole network. -/
def out (x0 : (⟨S100000x128, .f32⟩ : BufTy).Contents (Elt F)) (x1 : (⟨S2x1200000, .i32⟩ : BufTy).Contents (Elt F)) (x2 : (⟨S100000, .i32⟩ : BufTy).Contents (Elt F))
    (x3 : (⟨S128x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F))
    (x7 : (⟨S64x32, .f32⟩ : BufTy).Contents (Elt F)) (x8 : (⟨S32, .f32⟩ : BufTy).Contents (Elt F)) : (⟨S64x32, .f32⟩ : BufTy).Contents (Elt F) :=
  fc F (pool F (biasClamp F (agg F (mm2 F (biasClamp F (agg F (mm1 F x0 x3) x1) (row64 F x4)) x5) x1) (row64 F x6)) x2) x7 (row32 F x8)

end Cert.ReferenceIdeal.Net

end
-- ==== Proof.RefValue.lean ====
/-
  The reference program's result is the network of Proof/Net.lean applied to its arguments: the composed term its run
  ends at is that network with every stage unfolded (the edge weights, which the reference computes once per layer,
  are one term both times).
-/
import proofs.«147617_j81080392614195_1_alg».proof.Proof.RefRun
import proofs.«147617_j81080392614195_1_alg».proof.Proof.Net

noncomputable section

namespace Cert.ReferenceIdeal.RefValue

open Cert.ReferenceIdeal Cert.ReferenceIdeal.Gen Idealize.ShloMosaic Idealize.ShloMosaic.TcCoe Idealize.SL.Sem

variable {F : FTy → Type} [FloatOps F]

set_option maxRecDepth 8192 in
/-- The run's result term, unfolded, is the network of the arguments. -/
theorem res_eq (m : (ℓ : Loc nD τ sig) → Buf (Elt F) ℓ) (c : Dev nD) :
    Cert.ReferenceIdeal.ValueP.res_main_v105 m c
      = Net.out F (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  unfold Cert.ReferenceIdeal.ValueP.res_main_v105 Net.out Net.fc Net.pool Net.biasClamp Net.agg Net.aggOf Net.mm2 Net.mm1 Net.row64 Net.row32
    Net.norm Net.normOf Net.dinv Net.dinvOf Net.whereOf Net.gtZero Net.deg Net.degOf Net.wrap Net.src Net.dst
  rfl

end Cert.ReferenceIdeal.RefValue

end
-- ==== Proof.KernelRun.lean ====
/-
  The pipelined program's run with its result kept: from any memory with zero counters every weakly fair execution of
  @main terminates, nothing faulting, with the arguments unchanged and the result buffer holding what the last
  boundary's contents hold there — the fold of the host stretches and the five regions' write-backs from the launch
  memory (`Gen.W11`). The frame claim keeps only the arguments of this post; the value claim needs the result too.
-/
import proofs.«147617_j81080392614195_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the eleven segments of @main, read at the result buffer and at the arguments. -/
theorem run_result : θ_run defs (onTc (τ := τ) (main (F := F))) ⟨m, fun _ => 0, ρ⟩ (fun r => ∀ c : Dev nD,
      r.2.mem ((c.tc : Thread nD τ).loc main_v75) = W11 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v75 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.KernelIdeal.Run

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.LibHostDotPlain.lean ====
/-
  The host's plain matrix product read at an index, over the extended reals.

  For the dimension numbers of an [M, K] by [K, N] product with no batch axis, the host's dot_general at the entry
  (p, q) is the sum over k < K of A (p, k) * B (k, q), whatever precision it is asked for. The extents are arbitrary,
  and so are the operands' float formats.
-/
import proofs.«147617_j81080392614195_1_alg».proof.Proof.LibMatmulPlain

noncomputable section

open scoped BigOperators

namespace Idealize.ShloMosaic.HostDotPlain

open Idealize.ShloMosaic Idealize.ShloMosaic.ValueIdx

variable {M K N : Nat}

/-- The host's plain product at an entry: the row-by-column sum. -/
theorem dotGeneral_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    Host.dotGeneral (F := Ideal) (DotDims.plain M K N) prec A B j = ∑ k : Fin K, A (ix2 (j 0) k) * B (ix2 k (j 1)) := by
  refine (Ideal.dotGeneral_apply (DotDims.plain M K N) prec .single A B j).trans ?_
  rw [← Equiv.sum_comp (contrEquiv1 (DotDims.plain M K N) K MatmulPlain.contr_rank MatmulPlain.contr_size).symm]
  exact Finset.sum_congr rfl fun k _ => by rw [MatmulPlain.lhsIdx_eq, MatmulPlain.rhsIdx_eq]; rfl

end Idealize.ShloMosaic.HostDotPlain

end
-- ==== Proof.LibKeepdims.lean ====
/-
  The column forms a sum that keeps its reduced axis goes through, read at an index.

  A row sum that keeps the reduced axis as a unit axis (`keepdims`) leaves a vector of length `a`, casts it to the
  column `[a, 1]`, and broadcasts the column across `b` lanes to `[a, b]`. Read at an index: the column at `(i, u)` is
  the vector at `i`, and the broadcast at `(i, j)` is the column at `(i, 0)`, for arbitrary extents and any element
  type. (The leading-unit-axis casts and the row broadcast `[1, b] → [a, b]` are the library's.)
-/
import Idealize.ShloMosaic.Lib.Pipeline.Value
import Idealize.ShloMosaic.Lib.ValueIdx

namespace Idealize.ShloMosaic.Keepdims

open Idealize.ShloMosaic Idealize.ShloMosaic.ValueIdx

variable {α : Type}

/-- A vector of length `a` cast to the column `[a, 1]` reads, at `(i, u)`, the vector at `i`: the two indices have
    the same row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`: the row coordinate is
    kept (also when `a = 1`, where it can only be `0`), the unit axis is read at `0`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.Keepdims
-- ==== Proof.LibHostColRow.lean ====
/-
  Host broadcasts of a column and of a row, and a vector cast to a column or to a row, read at an index.

  For arbitrary extents and any element type.  A column [M, 1] broadcast (broadcast_in_dim, axes [0, 1]) to [M, N]
  reads at (r, q) the column's entry (r, 0); a row [1, N] broadcast to [M, N] reads at (r, q) the row's entry
  (0, q).  A vector of length M cast to the column [M, 1] holds the same entries as the vector broadcast into
  [M, 1] along axis 0, and a vector of length N cast to the row [1, N] the same as the vector broadcast into [1, N]
  along axis 1: so a program that reshapes a vector and one that broadcasts it agree.
-/
import proofs.«147617_j81080392614195_1_alg».proof.Proof.LibKeepdims
import Idealize.ShloMosaic.Lib.Pipeline.Value
import Idealize.ShloMosaic.Lib.ValueLayout
import Idealize.ShloMosaic.Lib.ValueIdx

namespace Idealize.ShloMosaic.HostColRow

open Idealize.ShloMosaic Idealize.ShloMosaic.ValueIdx

variable {M N : Nat}

/-- A column broadcast along the lanes, at (r, q): the column's entry of row r. -/
theorem bcast_col_apply {α : Type} (n : (⟨2, ![M, 1]⟩ : Shape).Idx → α)
    (h : (⟨2, ![M, 1]⟩ : Shape).BroadcastsInDim ⟨2, ![M, N]⟩ ![0, 1]) (i : (⟨2, ![M, N]⟩ : Shape).Idx) :
    broadcastInDim ⟨2, ![M, N]⟩ ![0, 1] h n i = n (ix2 (i 0) (0 : Fin 1)) := by
  refine broadcastInDim_apply _ h n i (ix2 (i 0) (0 : Fin 1)) fun a => ?_
  match a with
  | ⟨0, _⟩ =>
    show (i 0).val = if M = 1 then 0 else (i 0).val
    have h0 : (i 0).val < M := (i 0).isLt
    split
    · omega
    · rfl
  | ⟨1, _⟩ => rfl

/-- A row broadcast over the rows, at (r, q): the row's entry of lane q. -/
theorem bcast_row_apply {α : Type} (b : (⟨2, ![1, N]⟩ : Shape).Idx → α)
    (h : (⟨2, ![1, N]⟩ : Shape).BroadcastsInDim ⟨2, ![M, N]⟩ ![0, 1]) (i : (⟨2, ![M, N]⟩ : Shape).Idx) :
    broadcastInDim ⟨2, ![M, N]⟩ ![0, 1] h b i = b (ix2 (0 : Fin 1) (i 1)) := by
  refine broadcastInDim_apply _ h b i (ix2 (0 : Fin 1) (i 1)) fun a => ?_
  match a with
  | ⟨0, _⟩ => rfl
  | ⟨1, _⟩ =>
    show (i 1).val = if N = 1 then 0 else (i 1).val
    have h1 : (i 1).val < N := (i 1).isLt
    split
    · omega
    · rfl

/-- A vector cast to a column holds what the vector broadcast into the column along its axis holds. -/
theorem col_eq {α : Type} (x : (⟨1, ![M]⟩ : Shape).Idx → α) (h : (⟨1, ![M]⟩ : Shape).ShapeCasts ⟨2, ![M, 1]⟩)
    (h' : (⟨1, ![M]⟩ : Shape).BroadcastsInDim ⟨2, ![M, 1]⟩ ![0]) :
    shapeCast ⟨2, ![M, 1]⟩ x h = broadcastInDim ⟨2, ![M, 1]⟩ ![0] h' x := by
  funext i
  obtain ⟨p, u, rfl⟩ : ∃ (p : Fin M) (u : Fin 1), i = ix2 p u := ⟨i 0, i 1, eq_ix2 i⟩
  rw [Keepdims.shapeCast_a_a1_apply x h p u]
  refine (broadcastInDim_apply ![0] h' x _ (ix1 p) fun a => ?_).symm
  match a with
  | ⟨0, _⟩ =>
    show p.val = if M = 1 then 0 else p.val
    have h0 : p.val < M := p.isLt
    split
    · omega
    · rfl

/-- A vector cast to a row holds what the vector broadcast into the row along its axis holds. -/
theorem row_eq {α : Type} (x : (⟨1, ![N]⟩ : Shape).Idx → α) (h : (⟨1, ![N]⟩ : Shape).ShapeCasts ⟨2, ![1, N]⟩)
    (h' : (⟨1, ![N]⟩ : Shape).BroadcastsInDim ⟨2, ![1, N]⟩ ![1]) :
    shapeCast ⟨2, ![1, N]⟩ x h = broadcastInDim ⟨2, ![1, N]⟩ ![1] h' x := by
  funext i
  obtain ⟨u, q, rfl⟩ : ∃ (u : Fin 1) (q : Fin N), i = ix2 u q := ⟨i 0, i 1, eq_ix2 i⟩
  rw [shapeCast_a_1a_apply x h u q]
  refine (broadcastInDim_apply ![1] h' x _ (ix1 q) fun a => ?_).symm
  match a with
  | ⟨0, _⟩ =>
    show q.val = if N = 1 then 0 else q.val
    have h1 : q.val < N := q.isLt
    split
    · omega
    · rfl

end Idealize.ShloMosaic.HostColRow
-- ==== Proof.Layers.lean ====
/-
  The dense pieces of the network on the extended reals, each in the two spellings the two programs use, read at an
  entry.

  A product of an [M, K] matrix with a [K, N] matrix: the matrix unit forms it on operands rounded to a narrower
  format (no change on the extended reals) into a zero accumulator; the host forms it in one dot_general. Either way
  the entry (p, q) is the row-by-column sum  Σ_k A (p, k) · B (k, q).

  A bias row added to every row of a matrix and the result clamped below at zero: on the vector unit the one-row
  matrix is broadcast over the rows and the zero is a broadcast scalar; on the host the row is broadcast by
  broadcast_in_dim and the zero is a broadcast rank-0 constant. Either way the entry (p, q) is
  max (a (p, q) + r (0, q), 0).  The zero is kept as the float word it is printed as, the same on both sides.
-/
import proofs.«147617_j81080392614195_1_alg».proof.Proof.LibMatmulPlain
import proofs.«147617_j81080392614195_1_alg».proof.Proof.LibHostDotPlain
import proofs.«147617_j81080392614195_1_alg».proof.Proof.LibHostColRow
import Idealize.ShloMosaic.Lib.ValueLayout
import Idealize.ShloMosaic.Lib.Pipeline.Value

noncomputable section

open scoped BigOperators

namespace Cert.Layers

open Idealize.ShloMosaic Idealize.ShloMosaic.ValueIdx

variable {M K N : Nat}

/-- The matrix unit's product of the rounded operands into the zero accumulator, at an entry. -/
theorem unit_product_apply (A : FVec Ideal ⟨2, ![M, K]⟩ .f32) (B : FVec Ideal ⟨2, ![K, N]⟩ .f32)
    (h1 : FTy.bf16.bits < FTy.f32.bits) (h2 : FTy.bf16.bits < FTy.f32.bits) (j : (⟨2, ![M, N]⟩ : Shape).Idx) :
    matmul (DotDims.plain M K N) none (truncf .bf16 A h1) (truncf .bf16 B h2)
        (constant (F := Ideal) ⟨2, ![M, N]⟩ .f32 0x00000000#32) j
      = ∑ k : Fin K, A (ix2 (j 0) k) * B (ix2 k (j 1)) :=
  MatmulPlain.matmul_zero_apply none (truncf .bf16 A h1) (truncf .bf16 B h2) j

/-- The host's product, at an entry. -/
theorem host_product_apply (A : FVec Ideal ⟨2, ![M, K]⟩ .f32) (B : FVec Ideal ⟨2, ![K, N]⟩ .f32)
    (j : (⟨2, ![M, N]⟩ : Shape).Idx) :
    Host.dotGeneral (F := Ideal) (DotDims.plain M K N) none A B j = ∑ k : Fin K, A (ix2 (j 0) k) * B (ix2 k (j 1)) :=
  HostDotPlain.dotGeneral_apply none A B j

/-- The vector unit's bias and clamp, at an entry: the casts change nothing, the one-row matrix is read at its lane. -/
theorem unit_bias_clamp_apply (a : FVec Ideal ⟨2, ![M, N]⟩ .f32) (r : FVec Ideal ⟨2, ![1, N]⟩ .f32)
    (hc : (⟨2, ![M, N]⟩ : Shape).ShapeCasts ⟨2, ![M, N]⟩) (hr : (⟨2, ![1, N]⟩ : Shape).ShapeCasts ⟨2, ![1, N]⟩)
    (hb : (⟨2, ![1, N]⟩ : Shape).Broadcasts ⟨2, ![M, N]⟩) (p : Fin M) (q : Fin N) :
    maximumf (addf (shapeCast ⟨2, ![M, N]⟩ a hc) (broadcastTo ⟨2, ![M, N]⟩ (shapeCast ⟨2, ![1, N]⟩ r hr) hb))
        (broadcast ⟨2, ![M, N]⟩ (Scalar.ofBits (F := Ideal) .f32 0x00000000#32)) (ix2 p q)
      = max (a (ix2 p q) + r (ix2 (0 : Fin 1) q)) (Ideal.ofBits .f32 0x00000000#32) := by
  rw [shapeCast_self, shapeCast_self]
  show max (a (ix2 p q) + broadcastTo ⟨2, ![M, N]⟩ r hb (ix2 p q)) _ = _
  rw [broadcastTo_1b_ab_apply]
  rfl

/-- The bias added to a matrix unit's result (no cast on that operand) and the clamp, at an entry. -/
theorem unit_add_bias_clamp_apply (a : FVec Ideal ⟨2, ![M, N]⟩ .f32) (r : FVec Ideal ⟨2, ![1, N]⟩ .f32)
    (hr : (⟨2, ![1, N]⟩ : Shape).ShapeCasts ⟨2, ![1, N]⟩)
    (hb : (⟨2, ![1, N]⟩ : Shape).Broadcasts ⟨2, ![M, N]⟩) (p : Fin M) (q : Fin N) :
    maximumf (addf a (broadcastTo ⟨2, ![M, N]⟩ (shapeCast ⟨2, ![1, N]⟩ r hr) hb))
        (broadcast ⟨2, ![M, N]⟩ (Scalar.ofBits (F := Ideal) .f32 0x00000000#32)) (ix2 p q)
      = max (a (ix2 p q) + r (ix2 (0 : Fin 1) q)) (Ideal.ofBits .f32 0x00000000#32) := by
  rw [shapeCast_self]
  show max (a (ix2 p q) + broadcastTo ⟨2, ![M, N]⟩ r hb (ix2 p q)) _ = _
  rw [broadcastTo_1b_ab_apply]
  rfl

/-- The host's bias and clamp, at an entry. -/
theorem host_bias_clamp_apply (a : FVec Ideal ⟨2, ![M, N]⟩ .f32) (r : FVec Ideal ⟨2, ![1, N]⟩ .f32)
    (h2 : (⟨2, ![1, N]⟩ : Shape).BroadcastsInDim ⟨2, ![M, N]⟩ ![0, 1])
    (h0 : (⟨0, ![]⟩ : Shape).BroadcastsInDim ⟨2, ![M, N]⟩ ![]) (i : (⟨2, ![M, N]⟩ : Shape).Idx) :
    maximumf (addf a (broadcastInDim ⟨2, ![M, N]⟩ ![0, 1] h2 r))
        (broadcastInDim ⟨2, ![M, N]⟩ ![] h0 (constant (F := Ideal) ⟨0, ![]⟩ .f32 0x00000000#32)) i
      = max (a i + r (ix2 (0 : Fin 1) (i 1))) (Ideal.ofBits .f32 0x00000000#32) := by
  show max (a i + broadcastInDim ⟨2, ![M, N]⟩ ![0, 1] h2 r i)
      (broadcastInDim ⟨2, ![M, N]⟩ ![] h0 (constant (F := Ideal) ⟨0, ![]⟩ .f32 0x00000000#32) i) = _
  rw [HostColRow.bcast_row_apply,
    broadcastInDim_apply ![] h0 (constant (F := Ideal) ⟨0, ![]⟩ .f32 0x00000000#32) i (fun a => a.elim0) (fun a => a.elim0)]
  rfl

end Cert.Layers

end
-- ==== Proof.Region0.lean ====
/-
  Region 0 of the pipelined program (a matrix product over 25 tiles of 4000 rows): whatever the buffers hold when
  the region is entered, the output array ends holding the host's product of the two input arrays.

  Tile t of the output is rows 4000 t … 4000 t + 3999, all 64 columns; the left operand's tile is the same rows, all
  128 columns, and the right operand is the whole [128, 64] matrix at every tile. At a tile's entry (p, q) the matrix unit
  leaves Σ_k a (4000 t + p, k) · b (k, q) (the rounding of its operands changes nothing on the extended reals), which
  is the host's product at the entry (4000 t + p, q); the 25 tiles cover the 100000 rows.
-/
import proofs.«147617_j81080392614195_1_alg».proof.Proof.Gen.KernelIdeal.Frame
import proofs.«147617_j81080392614195_1_alg».proof.Proof.Layers
import proofs.«147617_j81080392614195_1_alg».proof.Proof.Net
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left operand's block moves with the output's rows, the right operand's
    stays. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_2.index t (0 : Fin 2) = t.val ∧ win0_2.index t (1 : Fin 2) = 0 :=
  (by decide +kernel : ∀ t : Fin grid0.N, _)

/-- The body's stored value at a tile's entry: the row-by-column sum. -/
theorem pay_apply (x0 : Vec Ideal S4000x128 .f32) (x1 : Vec Ideal S128x64 .f32) (j : S4000x64.Idx) :
    k0_pay1 x0 x1 j = ∑ k : Fin 128, x0 (ix2 (j 0) k) * x1 (ix2 k (j 1)) := by
  unfold k0_pay1
  exact Cert.Layers.unit_product_apply (M := 4000) (K := 128) (N := 64) x0 x1 _ _ j

/-- The host's product at an entry of the whole array. -/
theorem host_apply (a : Vec Ideal S100000x128 .f32) (b : Vec Ideal S128x64 .f32) (i : S100000x64.Idx) :
    Cert.ReferenceIdeal.Net.mm1 Ideal a b i = ∑ k : Fin 128, a (ix2 (i 0) k) * b (ix2 k (i 1)) := by
  unfold Cert.ReferenceIdeal.Net.mm1
  exact Cert.Layers.host_product_apply (M := 100000) (K := 128) (N := 64) a b i

/-- What tile t writes back is block t of the host's product of the arrays as the region finds them. -/
theorem flushed_eq (c : Dev nD) (t : Fin cfg0.N) :
    (dat0 V c).flushed 2 t
      = ((cfg0.win 2).blk t).view.read (Elt Ideal) (Cert.ReferenceIdeal.Net.mm1 Ideal (V c main_arg0) (V c main_arg3)) := by
  show (cfg0.win 2).cut (grid0.coords t) ((dat0 V c).after 2 t) = _
  rw [after0_2]
  unfold out0_2
  rw [View.canon_unit_zero hz]
  simp only [View.ld_unit_zero (S := S4000x128) hz, View.ld_unit_zero (S := S128x64) hz]
  obtain ⟨e0, e1, e2, e3, e4, e5⟩ := idx_facts t
  funext j
  show k0_pay1 (iblk0 V c 0 t) (iblk0 V c 1 t) j
    = Cert.ReferenceIdeal.Net.mm1 Ideal (V c main_arg0) (V c main_arg3) (((cfg0.win 2).blk t).view.emb j)
  rw [host_apply]
  refine (pay_apply (iblk0 V c 0 t) (iblk0 V c 1 t) j).trans ?_
  refine Finset.sum_congr rfl fun k _ => ?_
  have h0 : iblk0 V c 0 t (ix2 (j 0) k) = V c main_arg0 (ix2 ((((cfg0.win 2).blk t).view.emb j) 0) k) := by
    show V c main_arg0 (((cfg0.win 0).blk t).view.emb (ix2 (j 0) k)) = _
    refine congrArg (V c main_arg0) (funext fun a => Fin.ext ?_)
    match a with
    | ⟨0, _⟩ =>
      show win0_0.index t (0 : Fin 2) * 4000 + 1 * (j 0).val = win0_2.index t (0 : Fin 2) * 4000 + 1 * (j 0).val
      omega
    | ⟨1, _⟩ =>
      show win0_0.index t (1 : Fin 2) * 128 + 1 * k.val = k.val
      omega
  have h1 : iblk0 V c 1 t (ix2 k (j 1)) = V c main_arg3 (ix2 k ((((cfg0.win 2).blk t).view.emb j) 1)) := by
    show V c main_arg3 (((cfg0.win 1).blk t).view.emb (ix2 k (j 1))) = _
    refine congrArg (V c main_arg3) (funext fun a => Fin.ext ?_)
    match a with
    | ⟨0, _⟩ =>
      show win0_1.index t (0 : Fin 2) * 128 + 1 * k.val = k.val
      omega
    | ⟨1, _⟩ =>
      show win0_1.index t (1 : Fin 2) * 64 + 1 * (j 1).val = win0_2.index t (1 : Fin 2) * 64 + 1 * (j 1).val
      omega
  rw [h0, h1]

/-- An index of the array is in tile t's block iff each coordinate is in the block's range on its axis. -/
theorem mem_blk (t : Fin cfg0.N) (i : S100000x64.Idx) :
    i ∈ ((cfg0.win 2).blk t).view.set ↔ ∀ a : Fin 2, win0_2.index t a * S4000x64.size a ≤ (i a).val
      ∧ (i a).val < win0_2.index t a * S4000x64.size a + S4000x64.size a := by
  show i ∈ ((View.whole main_v30).slice (win0_2.rect t)).set ↔ _
  rw [View.set_slice_whole, Rect.mem_set_unit]
  exact Iff.rfl

/-- Row r lies in tile r / 4000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have ht : (i 0).val / 4000 < cfg0.N := by rw [show cfg0.N = 25 from N_0]; omega
  obtain ⟨e0, e1, e2, e3, e4, e5⟩ := idx_facts ⟨(i 0).val / 4000, ht⟩
  refine ⟨⟨(i 0).val / 4000, ht⟩, flush0_2 _, ?_⟩
  rw [mem_blk]
  intro a
  match a with
  | ⟨0, _⟩ =>
    show win0_2.index ⟨(i 0).val / 4000, ht⟩ (0 : Fin 2) * 4000 ≤ (i 0).val
      ∧ (i 0).val < win0_2.index ⟨(i 0).val / 4000, ht⟩ (0 : Fin 2) * 4000 + 4000
    rw [e4]
    show (i 0).val / 4000 * 4000 ≤ (i 0).val ∧ (i 0).val < (i 0).val / 4000 * 4000 + 4000
    omega
  | ⟨1, _⟩ =>
    show win0_2.index ⟨(i 0).val / 4000, ht⟩ (1 : Fin 2) * 64 ≤ (i 1).val
      ∧ (i 1).val < win0_2.index ⟨(i 0).val / 4000, ht⟩ (1 : Fin 2) * 64 + 64
    rw [e5]
    omega

/-- The output array after the region. -/
theorem final (c : Dev nD) :
    (dat0 V c).arrAt 2 cfg0.N = Cert.ReferenceIdeal.Net.mm1 Ideal (V c main_arg0) (V c main_arg3) :=
  (dat0 V c).arrAt_eq_of_cover 2 _ (fun t _ => flushed_eq V c t) cover

end Cert.KernelIdeal.Region0

end
-- ==== Proof.Region1.lean ====
/-
  Region 1 of the pipelined program (bias row and clamp over 25 tiles of 4000 rows): whatever the buffers hold when
  the region is entered, the output array ends holding the host's bias-and-clamp of the two input arrays.

  Tile t of the output is rows 4000 t … 4000 t + 3999, all 64 lanes; the first input moves with it and the bias row
  is the same one-row block at every tile. At a tile's entry (p, q) the body leaves
  max (a (4000 t + p, q) + r (0, q), 0), which is the host's expression at the entry (4000 t + p, q) of the whole
  array; the 25 tiles cover the 100000 rows.
-/
import proofs.«147617_j81080392614195_1_alg».proof.Proof.Gen.KernelIdeal.Frame
import proofs.«147617_j81080392614195_1_alg».proof.Proof.Layers
import proofs.«147617_j81080392614195_1_alg».proof.Proof.Net
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the first input's block moves with the output's, the bias row's stays. -/
theorem idx_facts : ∀ t : Fin cfg1.N,
    win1_0.index t (0 : Fin 2) = win1_2.index t (0 : Fin 2) ∧ win1_0.index t (1 : Fin 2) = win1_2.index t (1 : Fin 2)
    ∧ win1_1.index t (0 : Fin 2) = 0 ∧ win1_1.index t (1 : Fin 2) = win1_2.index t (1 : Fin 2)
    ∧ win1_2.index t (0 : Fin 2) = t.val ∧ win1_2.index t (1 : Fin 2) = 0 :=
  (by decide +kernel : ∀ t : Fin grid1.N, _)

/-- The body's stored value at a tile's entry. -/
theorem pay_apply (x0 : Vec Ideal S4000x64 .f32) (x1 : Vec Ideal S1x64 .f32) (p : Fin 4000) (q : Fin 64) :
    k1_pay1 x0 x1 (ix2 p q) = max (x0 (ix2 p q) + x1 (ix2 (0 : Fin 1) q)) (Ideal.ofBits .f32 0x00000000#32) := by
  unfold k1_pay1
  exact Cert.Layers.unit_bias_clamp_apply (M := 4000) (N := 64) x0 x1 _ _ _ p q

/-- The host's expression at an entry of the whole array. -/
theorem host_apply (a : Vec Ideal S100000x64 .f32) (r : Vec Ideal S1x64 .f32) (i : S100000x64.Idx) :
    Cert.ReferenceIdeal.Net.biasClamp Ideal a r i
      = max (a i + r (ix2 (0 : Fin 1) (i 1))) (Ideal.ofBits .f32 0x00000000#32) := by
  unfold Cert.ReferenceIdeal.Net.biasClamp
  exact Cert.Layers.host_bias_clamp_apply (M := 100000) (N := 64) a r _ _ i

/-- What tile t writes back is block t of the host's expression of the arrays as the region finds them. -/
theorem flushed_eq (c : Dev nD) (t : Fin cfg1.N) :
    (dat1 V c).flushed 2 t
      = ((cfg1.win 2).blk t).view.read (Elt Ideal) (Cert.ReferenceIdeal.Net.biasClamp Ideal (V c main_v43) (V c main_v44)) := by
  show (cfg1.win 2).cut (grid1.coords t) ((dat1 V c).after 2 t) = _
  rw [after1_2]
  unfold out1_2
  rw [View.canon_unit_zero hz]
  simp only [View.ld_unit_zero (S := S4000x64) hz, View.ld_unit_zero (S := S1x64) hz]
  obtain ⟨e0, e1, e2, e3, e4, e5⟩ := idx_facts t
  funext j
  obtain ⟨p, q, rfl⟩ : ∃ (p : Fin 4000) (q : Fin 64), j = ix2 p q := ⟨j 0, j 1, eq_ix2 j⟩
  show k1_pay1 (iblk1 V c 0 t) (iblk1 V c 1 t) (ix2 p q)
    = Cert.ReferenceIdeal.Net.biasClamp Ideal (V c main_v43) (V c main_v44) (((cfg1.win 2).blk t).view.emb (ix2 p q))
  rw [host_apply]
  refine (pay_apply (iblk1 V c 0 t) (iblk1 V c 1 t) p q).trans ?_
  have h0 : iblk1 V c 0 t (ix2 p q) = V c main_v43 (((cfg1.win 2).blk t).view.emb (ix2 p q)) := by
    show V c main_v43 (((cfg1.win 0).blk t).view.emb (ix2 p q)) = _
    refine congrArg (V c main_v43) (funext fun a => Fin.ext ?_)
    match a with
    | ⟨0, _⟩ =>
      show win1_0.index t (0 : Fin 2) * 4000 + 1 * p.val = win1_2.index t (0 : Fin 2) * 4000 + 1 * p.val
      omega
    | ⟨1, _⟩ =>
      show win1_0.index t (1 : Fin 2) * 64 + 1 * q.val = win1_2.index t (1 : Fin 2) * 64 + 1 * q.val
      omega
  have h1 : iblk1 V c 1 t (ix2 (0 : Fin 1) q)
      = V c main_v44 (ix2 (0 : Fin 1) ((((cfg1.win 2).blk t).view.emb (ix2 p q)) 1)) := by
    show V c main_v44 (((cfg1.win 1).blk t).view.emb (ix2 (0 : Fin 1) q)) = _
    refine congrArg (V c main_v44) (funext fun a => Fin.ext ?_)
    match a with
    | ⟨0, _⟩ =>
      show win1_1.index t (0 : Fin 2) * 1 + 1 * 0 = 0
      omega
    | ⟨1, _⟩ =>
      show win1_1.index t (1 : Fin 2) * 64 + 1 * q.val = win1_2.index t (1 : Fin 2) * 64 + 1 * q.val
      omega
  rw [h0, h1]

/-- An index of the array is in tile t's block iff each coordinate is in the block's range on its axis. -/
theorem mem_blk (t : Fin cfg1.N) (i : S100000x64.Idx) :
    i ∈ ((cfg1.win 2).blk t).view.set ↔ ∀ a : Fin 2, win1_2.index t a * S4000x64.size a ≤ (i a).val
      ∧ (i a).val < win1_2.index t a * S4000x64.size a + S4000x64.size a := by
  show i ∈ ((View.whole main_v45).slice (win1_2.rect t)).set ↔ _
  rw [View.set_slice_whole, Rect.mem_set_unit]
  exact Iff.rfl

/-- Row r lies in tile r / 4000. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have ht : (i 0).val / 4000 < cfg1.N := by rw [show cfg1.N = 25 from N_1]; omega
  obtain ⟨e0, e1, e2, e3, e4, e5⟩ := idx_facts ⟨(i 0).val / 4000, ht⟩
  refine ⟨⟨(i 0).val / 4000, ht⟩, flush1_2 _, ?_⟩
  rw [mem_blk]
  intro a
  match a with
  | ⟨0, _⟩ =>
    show win1_2.index ⟨(i 0).val / 4000, ht⟩ (0 : Fin 2) * 4000 ≤ (i 0).val
      ∧ (i 0).val < win1_2.index ⟨(i 0).val / 4000, ht⟩ (0 : Fin 2) * 4000 + 4000
    rw [e4]
    show (i 0).val / 4000 * 4000 ≤ (i 0).val ∧ (i 0).val < (i 0).val / 4000 * 4000 + 4000
    omega
  | ⟨1, _⟩ =>
    show win1_2.index ⟨(i 0).val / 4000, ht⟩ (1 : Fin 2) * 64 ≤ (i 1).val
      ∧ (i 1).val < win1_2.index ⟨(i 0).val / 4000, ht⟩ (1 : Fin 2) * 64 + 64
    rw [e5]
    omega

/-- The output array after the region. -/
theorem final (c : Dev nD) :
    (dat1 V c).arrAt 2 cfg1.N = Cert.ReferenceIdeal.Net.biasClamp Ideal (V c main_v43) (V c main_v44) :=
  (dat1 V c).arrAt_eq_of_cover 2 _ (fun t _ => flushed_eq V c t) cover

end Cert.KernelIdeal.Region1

end
-- ==== Proof.Region2.lean ====
/-
  Region 2 of the pipelined program (a matrix product over 25 tiles of 4000 rows): whatever the buffers hold when
  the region is entered, the output array ends holding the host's product of the two input arrays.

  Tile t of the output is rows 4000 t … 4000 t + 3999, all 64 columns; the left operand's tile is the same rows, all
  64 columns, and the right operand is the whole [64, 64] matrix at every tile. At a tile's entry (p, q) the matrix unit
  leaves Σ_k a (4000 t + p, k) · b (k, q) (the rounding of its operands changes nothing on the extended reals), which
  is the host's product at the entry (4000 t + p, q); the 25 tiles cover the 100000 rows.
-/
import proofs.«147617_j81080392614195_1_alg».proof.Proof.Gen.KernelIdeal.Frame
import proofs.«147617_j81080392614195_1_alg».proof.Proof.Layers
import proofs.«147617_j81080392614195_1_alg».proof.Proof.Net
import Idealize.ShloMosaic.Lib.Pipeline.Value
import Idealize.ShloMosaic.Lib.ValueIdx

set_option maxRecDepth 16384

noncomputable section

open scoped BigOperators

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left operand's block moves with the output's rows, the right operand's
    stays. -/
theorem idx_facts : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = win2_2.index t (1 : Fin 2)
    ∧ win2_2.index t (0 : Fin 2) = t.val ∧ win2_2.index t (1 : Fin 2) = 0 :=
  (by decide +kernel : ∀ t : Fin grid2.N, _)

/-- The body's stored value at a tile's entry: the row-by-column sum. -/
theorem pay_apply (x0 : Vec Ideal S4000x64 .f32) (x1 : Vec Ideal S64x64 .f32) (j : S4000x64.Idx) :
    k2_pay1 x0 x1 j = ∑ k : Fin 64, x0 (ix2 (j 0) k) * x1 (ix2 k (j 1)) := by
  unfold k2_pay1
  rw [shapeCast_self]
  exact Cert.Layers.unit_product_apply (M := 4000) (K := 64) (N := 64) x0 x1 _ _ j

/-- The host's product at an entry of the whole array. -/
theorem host_apply (a : Vec Ideal S100000x64 .f32) (b : Vec Ideal S64x64 .f32) (i : S100000x64.Idx) :
    Cert.ReferenceIdeal.Net.mm2 Ideal a b i = ∑ k : Fin 64, a (ix2 (i 0) k) * b (ix2 k (i 1)) := by
  unfold Cert.ReferenceIdeal.Net.mm2
  exact Cert.Layers.host_product_apply (M := 100000) (K := 64) (N := 64) a b i

/-- What tile t writes back is block t of the host's product of the arrays as the region finds them. -/
theorem flushed_eq (c : Dev nD) (t : Fin cfg2.N) :
    (dat2 V c).flushed 2 t
      = ((cfg2.win 2).blk t).view.read (Elt Ideal) (Cert.ReferenceIdeal.Net.mm2 Ideal (V c main_v45) (V c main_arg5)) := by
  show (cfg2.win 2).cut (grid2.coords t) ((dat2 V c).after 2 t) = _
  rw [after2_2]
  unfold out2_2
  rw [View.canon_unit_zero hz]
  simp only [View.ld_unit_zero (S := S4000x64) hz, View.ld_unit_zero (S := S64x64) hz]
  obtain ⟨e0, e1, e2, e3, e4, e5⟩ := idx_facts t
  funext j
  show k2_pay1 (iblk2 V c 0 t) (iblk2 V c 1 t) j
    = Cert.ReferenceIdeal.Net.mm2 Ideal (V c main_v45) (V c main_arg5) (((cfg2.win 2).blk t).view.emb j)
  rw [host_apply]
  refine (pay_apply (iblk2 V c 0 t) (iblk2 V c 1 t) j).trans ?_
  refine Finset.sum_congr rfl fun k _ => ?_
  have h0 : iblk2 V c 0 t (ix2 (j 0) k) = V c main_v45 (ix2 ((((cfg2.win 2).blk t).view.emb j) 0) k) := by
    show V c main_v45 (((cfg2.win 0).blk t).view.emb (ix2 (j 0) k)) = _
    refine congrArg (V c main_v45) (funext fun a => Fin.ext ?_)
    match a with
    | ⟨0, _⟩ =>
      show win2_0.index t (0 : Fin 2) * 4000 + 1 * (j 0).val = win2_2.index t (0 : Fin 2) * 4000 + 1 * (j 0).val
      omega
    | ⟨1, _⟩ =>
      show win2_0.index t (1 : Fin 2) * 64 + 1 * k.val = k.val
      omega
  have h1 : iblk2 V c 1 t (ix2 k (j 1)) = V c main_arg5 (ix2 k ((((cfg2.win 2).blk t).view.emb j) 1)) := by
    show V c main_arg5 (((cfg2.win 1).blk t).view.emb (ix2 k (j 1))) = _
    refine congrArg (V c main_arg5) (funext fun a => Fin.ext ?_)
    match a with
    | ⟨0, _⟩ =>
      show win2_1.index t (0 : Fin 2) * 64 + 1 * k.val = k.val
      omega
    | ⟨1, _⟩ =>
      show win2_1.index t (1 : Fin 2) * 64 + 1 * (j 1).val = win2_2.index t (1 : Fin 2) * 64 + 1 * (j 1).val
      omega
  rw [h0, h1]

/-- An index of the array is in tile t's block iff each coordinate is in the block's range on its axis. -/
theorem mem_blk (t : Fin cfg2.N) (i : S100000x64.Idx) :
    i ∈ ((cfg2.win 2).blk t).view.set ↔ ∀ a : Fin 2, win2_2.index t a * S4000x64.size a ≤ (i a).val
      ∧ (i a).val < win2_2.index t a * S4000x64.size a + S4000x64.size a := by
  show i ∈ ((View.whole main_v46).slice (win2_2.rect t)).set ↔ _
  rw [View.set_slice_whole, Rect.mem_set_unit]
  exact Iff.rfl

/-- Row r lies in tile r / 4000. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have ht : (i 0).val / 4000 < cfg2.N := by rw [show cfg2.N = 25 from N_2]; omega
  obtain ⟨e0, e1, e2, e3, e4, e5⟩ := idx_facts ⟨(i 0).val / 4000, ht⟩
  refine ⟨⟨(i 0).val / 4000, ht⟩, flush2_2 _, ?_⟩
  rw [mem_blk]
  intro a
  match a with
  | ⟨0, _⟩ =>
    show win2_2.index ⟨(i 0).val / 4000, ht⟩ (0 : Fin 2) * 4000 ≤ (i 0).val
      ∧ (i 0).val < win2_2.index ⟨(i 0).val / 4000, ht⟩ (0 : Fin 2) * 4000 + 4000
    rw [e4]
    show (i 0).val / 4000 * 4000 ≤ (i 0).val ∧ (i 0).val < (i 0).val / 4000 * 4000 + 4000
    omega
  | ⟨1, _⟩ =>
    show win2_2.index ⟨(i 0).val / 4000, ht⟩ (1 : Fin 2) * 64 ≤ (i 1).val
      ∧ (i 1).val < win2_2.index ⟨(i 0).val / 4000, ht⟩ (1 : Fin 2) * 64 + 64
    rw [e5]
    omega

/-- The output array after the region. -/
theorem final (c : Dev nD) :
    (dat2 V c).arrAt 2 cfg2.N = Cert.ReferenceIdeal.Net.mm2 Ideal (V c main_v45) (V c main_arg5) :=
  (dat2 V c).arrAt_eq_of_cover 2 _ (fun t _ => flushed_eq V c t) cover

end Cert.KernelIdeal.Region2

end
-- ==== Proof.Region3.lean ====
/-
  Region 3 of the pipelined program (bias row and clamp over 25 tiles of 4000 rows): whatever the buffers hold when
  the region is entered, the output array ends holding the host's bias-and-clamp of the two input arrays.

  Tile t of the output is rows 4000 t … 4000 t + 3999, all 64 lanes; the first input moves with it and the bias row
  is the same one-row block at every tile. At a tile's entry (p, q) the body leaves
  max (a (4000 t + p, q) + r (0, q), 0), which is the host's expression at the entry (4000 t + p, q) of the whole
  array; the 25 tiles cover the 100000 rows.
-/
import proofs.«147617_j81080392614195_1_alg».proof.Proof.Gen.KernelIdeal.Frame
import proofs.«147617_j81080392614195_1_alg».proof.Proof.Layers
import proofs.«147617_j81080392614195_1_alg».proof.Proof.Net
import Idealize.ShloMosaic.Lib.Pipeline.Value
import Idealize.ShloMosaic.Lib.ValueIdx

set_option maxRecDepth 16384

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the first input's block moves with the output's, the bias row's stays. -/
theorem idx_facts : ∀ t : Fin cfg3.N,
    win3_0.index t (0 : Fin 2) = win3_2.index t (0 : Fin 2) ∧ win3_0.index t (1 : Fin 2) = win3_2.index t (1 : Fin 2)
    ∧ win3_1.index t (0 : Fin 2) = 0 ∧ win3_1.index t (1 : Fin 2) = win3_2.index t (1 : Fin 2)
    ∧ win3_2.index t (0 : Fin 2) = t.val ∧ win3_2.index t (1 : Fin 2) = 0 :=
  (by decide +kernel : ∀ t : Fin grid3.N, _)

/-- The body's stored value at a tile's entry. -/
theorem pay_apply (x0 : Vec Ideal S4000x64 .f32) (x1 : Vec Ideal S1x64 .f32) (p : Fin 4000) (q : Fin 64) :
    k3_pay1 x0 x1 (ix2 p q) = max (x0 (ix2 p q) + x1 (ix2 (0 : Fin 1) q)) (Ideal.ofBits .f32 0x00000000#32) := by
  unfold k3_pay1
  exact Cert.Layers.unit_bias_clamp_apply (M := 4000) (N := 64) x0 x1 _ _ _ p q

/-- The host's expression at an entry of the whole array. -/
theorem host_apply (a : Vec Ideal S100000x64 .f32) (r : Vec Ideal S1x64 .f32) (i : S100000x64.Idx) :
    Cert.ReferenceIdeal.Net.biasClamp Ideal a r i
      = max (a i + r (ix2 (0 : Fin 1) (i 1))) (Ideal.ofBits .f32 0x00000000#32) := by
  unfold Cert.ReferenceIdeal.Net.biasClamp
  exact Cert.Layers.host_bias_clamp_apply (M := 100000) (N := 64) a r _ _ i

/-- What tile t writes back is block t of the host's expression of the arrays as the region finds them. -/
theorem flushed_eq (c : Dev nD) (t : Fin cfg3.N) :
    (dat3 V c).flushed 2 t
      = ((cfg3.win 2).blk t).view.read (Elt Ideal) (Cert.ReferenceIdeal.Net.biasClamp Ideal (V c main_v59) (V c main_v60)) := by
  show (cfg3.win 2).cut (grid3.coords t) ((dat3 V c).after 2 t) = _
  rw [after3_2]
  unfold out3_2
  rw [View.canon_unit_zero hz]
  simp only [View.ld_unit_zero (S := S4000x64) hz, View.ld_unit_zero (S := S1x64) hz]
  obtain ⟨e0, e1, e2, e3, e4, e5⟩ := idx_facts t
  funext j
  obtain ⟨p, q, rfl⟩ : ∃ (p : Fin 4000) (q : Fin 64), j = ix2 p q := ⟨j 0, j 1, eq_ix2 j⟩
  show k3_pay1 (iblk3 V c 0 t) (iblk3 V c 1 t) (ix2 p q)
    = Cert.ReferenceIdeal.Net.biasClamp Ideal (V c main_v59) (V c main_v60) (((cfg3.win 2).blk t).view.emb (ix2 p q))
  rw [host_apply]
  refine (pay_apply (iblk3 V c 0 t) (iblk3 V c 1 t) p q).trans ?_
  have h0 : iblk3 V c 0 t (ix2 p q) = V c main_v59 (((cfg3.win 2).blk t).view.emb (ix2 p q)) := by
    show V c main_v59 (((cfg3.win 0).blk t).view.emb (ix2 p q)) = _
    refine congrArg (V c main_v59) (funext fun a => Fin.ext ?_)
    match a with
    | ⟨0, _⟩ =>
      show win3_0.index t (0 : Fin 2) * 4000 + 1 * p.val = win3_2.index t (0 : Fin 2) * 4000 + 1 * p.val
      omega
    | ⟨1, _⟩ =>
      show win3_0.index t (1 : Fin 2) * 64 + 1 * q.val = win3_2.index t (1 : Fin 2) * 64 + 1 * q.val
      omega
  have h1 : iblk3 V c 1 t (ix2 (0 : Fin 1) q)
      = V c main_v60 (ix2 (0 : Fin 1) ((((cfg3.win 2).blk t).view.emb (ix2 p q)) 1)) := by
    show V c main_v60 (((cfg3.win 1).blk t).view.emb (ix2 (0 : Fin 1) q)) = _
    refine congrArg (V c main_v60) (funext fun a => Fin.ext ?_)
    match a with
    | ⟨0, _⟩ =>
      show win3_1.index t (0 : Fin 2) * 1 + 1 * 0 = 0
      omega
    | ⟨1, _⟩ =>
      show win3_1.index t (1 : Fin 2) * 64 + 1 * q.val = win3_2.index t (1 : Fin 2) * 64 + 1 * q.val
      omega
  rw [h0, h1]

/-- An index of the array is in tile t's block iff each coordinate is in the block's range on its axis. -/
theorem mem_blk (t : Fin cfg3.N) (i : S100000x64.Idx) :
    i ∈ ((cfg3.win 2).blk t).view.set ↔ ∀ a : Fin 2, win3_2.index t a * S4000x64.size a ≤ (i a).val
      ∧ (i a).val < win3_2.index t a * S4000x64.size a + S4000x64.size a := by
  show i ∈ ((View.whole main_v61).slice (win3_2.rect t)).set ↔ _
  rw [View.set_slice_whole, Rect.mem_set_unit]
  exact Iff.rfl

/-- Row r lies in tile r / 4000. -/
theorem cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have ht : (i 0).val / 4000 < cfg3.N := by rw [show cfg3.N = 25 from N_3]; omega
  obtain ⟨e0, e1, e2, e3, e4, e5⟩ := idx_facts ⟨(i 0).val / 4000, ht⟩
  refine ⟨⟨(i 0).val / 4000, ht⟩, flush3_2 _, ?_⟩
  rw [mem_blk]
  intro a
  match a with
  | ⟨0, _⟩ =>
    show win3_2.index ⟨(i 0).val / 4000, ht⟩ (0 : Fin 2) * 4000 ≤ (i 0).val
      ∧ (i 0).val < win3_2.index ⟨(i 0).val / 4000, ht⟩ (0 : Fin 2) * 4000 + 4000
    rw [e4]
    show (i 0).val / 4000 * 4000 ≤ (i 0).val ∧ (i 0).val < (i 0).val / 4000 * 4000 + 4000
    omega
  | ⟨1, _⟩ =>
    show win3_2.index ⟨(i 0).val / 4000, ht⟩ (1 : Fin 2) * 64 ≤ (i 1).val
      ∧ (i 1).val < win3_2.index ⟨(i 0).val / 4000, ht⟩ (1 : Fin 2) * 64 + 64
    rw [e5]
    omega

/-- The output array after the region. -/
theorem final (c : Dev nD) :
    (dat3 V c).arrAt 2 cfg3.N = Cert.ReferenceIdeal.Net.biasClamp Ideal (V c main_v59) (V c main_v60) :=
  (dat3 V c).arrAt_eq_of_cover 2 _ (fun t _ => flushed_eq V c t) cover

end Cert.KernelIdeal.Region3

end
-- ==== Proof.Region4.lean ====
/-
  Region 4 of the pipelined program (the last dense layer, one grid point over whole arrays): whatever the buffers hold
  when the region is entered, the output array ends holding the host's product, bias and clamp of the three input
  arrays.

  Every window's one block is its whole array. At the entry (p, q) the body leaves
  max (Σ_k x (p, k) · w (k, q) + r (0, q), 0) — the matrix unit's product of the rounded operands, the one-row bias
  broadcast over the rows, the clamp — which is the host's expression at (p, q).
-/
import proofs.«147617_j81080392614195_1_alg».proof.Proof.Gen.KernelIdeal.Frame
import proofs.«147617_j81080392614195_1_alg».proof.Proof.Layers
import proofs.«147617_j81080392614195_1_alg».proof.Proof.Net
import Idealize.ShloMosaic.Lib.Pipeline.Value
import Idealize.ShloMosaic.Lib.ValueIdx

set_option maxRecDepth 16384

noncomputable section

open scoped BigOperators

namespace Cert.KernelIdeal.Region4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Every window's block index is (0, 0) at the one grid point. -/
theorem idx_facts : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- The body's stored value at an entry. -/
theorem pay_apply (x0 : Vec Ideal S64x64 .f32) (x1 : Vec Ideal S64x32 .f32) (x2 : Vec Ideal S1x32 .f32)
    (p : Fin 64) (q : Fin 32) :
    k4_pay1 x0 x1 x2 (ix2 p q)
      = max ((∑ k : Fin 64, x0 (ix2 p k) * x1 (ix2 k q)) + x2 (ix2 (0 : Fin 1) q)) (Ideal.ofBits .f32 0x00000000#32) := by
  unfold k4_pay1
  rw [shapeCast_self]
  refine (Cert.Layers.unit_add_bias_clamp_apply (M := 64) (N := 32) _ x2 _ _ p q).trans ?_
  refine congrArg (fun z => max (z + x2 (ix2 (0 : Fin 1) q)) (Ideal.ofBits .f32 0x00000000#32)) ?_
  exact Cert.Layers.unit_product_apply (M := 64) (K := 64) (N := 32) x0 x1 _ _ (ix2 p q)

/-- The host's expression at an entry. -/
theorem host_apply (x : Vec Ideal S64x64 .f32) (w : Vec Ideal S64x32 .f32) (r : Vec Ideal S1x32 .f32) (i : S64x32.Idx) :
    Cert.ReferenceIdeal.Net.fc Ideal x w r i
      = max ((∑ k : Fin 64, x (ix2 (i 0) k) * w (ix2 k (i 1))) + r (ix2 (0 : Fin 1) (i 1))) (Ideal.ofBits .f32 0x00000000#32) := by
  unfold Cert.ReferenceIdeal.Net.fc
  refine (Cert.Layers.host_bias_clamp_apply (M := 64) (N := 32) _ r _ _ i).trans ?_
  refine congrArg (fun z => max (z + r (ix2 (0 : Fin 1) (i 1))) (Ideal.ofBits .f32 0x00000000#32)) ?_
  exact Cert.Layers.host_product_apply (M := 64) (K := 64) (N := 32) x w i

/-- What the one point writes back is the host's expression of the arrays as the region finds them. -/
theorem flushed_eq (c : Dev nD) (t : Fin cfg4.N) :
    (dat4 V c).flushed 3 t
      = ((cfg4.win 3).blk t).view.read (Elt Ideal)
          (Cert.ReferenceIdeal.Net.fc Ideal (V c main_v73) (V c main_arg7) (V c main_v74)) := by
  show (cfg4.win 3).cut (grid4.coords t) ((dat4 V c).after 3 t) = _
  rw [after4_3]
  unfold out4_3
  rw [View.canon_unit_zero hz]
  simp only [View.ld_unit_zero (S := S64x64) hz, View.ld_unit_zero (S := S64x32) hz, View.ld_unit_zero (S := S1x32) hz]
  obtain ⟨e0, e1, e2, e3, e4, e5, e6, e7⟩ := idx_facts t
  funext j
  obtain ⟨p, q, rfl⟩ : ∃ (p : Fin 64) (q : Fin 32), j = ix2 p q := ⟨j 0, j 1, eq_ix2 j⟩
  show k4_pay1 (iblk4 V c 0 t) (iblk4 V c 1 t) (iblk4 V c 2 t) (ix2 p q)
    = Cert.ReferenceIdeal.Net.fc Ideal (V c main_v73) (V c main_arg7) (V c main_v74) (((cfg4.win 3).blk t).view.emb (ix2 p q))
  rw [host_apply]
  refine (pay_apply (iblk4 V c 0 t) (iblk4 V c 1 t) (iblk4 V c 2 t) p q).trans ?_
  have h2 : iblk4 V c 2 t (ix2 (0 : Fin 1) q)
      = V c main_v74 (ix2 (0 : Fin 1) ((((cfg4.win 3).blk t).view.emb (ix2 p q)) 1)) := by
    show V c main_v74 (((cfg4.win 2).blk t).view.emb (ix2 (0 : Fin 1) q)) = _
    refine congrArg (V c main_v74) (funext fun a => Fin.ext ?_)
    match a with
    | ⟨0, _⟩ =>
      show win4_2.index t (0 : Fin 2) * 1 + 1 * 0 = 0
      omega
    | ⟨1, _⟩ =>
      show win4_2.index t (1 : Fin 2) * 32 + 1 * q.val = win4_3.index t (1 : Fin 2) * 32 + 1 * q.val
      omega
  rw [h2]
  refine congrArg (fun z => max (z + V c main_v74 (ix2 (0 : Fin 1) ((((cfg4.win 3).blk t).view.emb (ix2 p q)) 1)))
    (Ideal.ofBits .f32 0x00000000#32)) ?_
  refine Finset.sum_congr rfl fun k _ => ?_
  have h0 : iblk4 V c 0 t (ix2 p k) = V c main_v73 (ix2 ((((cfg4.win 3).blk t).view.emb (ix2 p q)) 0) k) := by
    show V c main_v73 (((cfg4.win 0).blk t).view.emb (ix2 p k)) = _
    refine congrArg (V c main_v73) (funext fun a => Fin.ext ?_)
    match a with
    | ⟨0, _⟩ =>
      show win4_0.index t (0 : Fin 2) * 64 + 1 * p.val = win4_3.index t (0 : Fin 2) * 64 + 1 * p.val
      omega
    | ⟨1, _⟩ =>
      show win4_0.index t (1 : Fin 2) * 64 + 1 * k.val = k.val
      omega
  have h1 : iblk4 V c 1 t (ix2 k q) = V c main_arg7 (ix2 k ((((cfg4.win 3).blk t).view.emb (ix2 p q)) 1)) := by
    show V c main_arg7 (((cfg4.win 1).blk t).view.emb (ix2 k q)) = _
    refine congrArg (V c main_arg7) (funext fun a => Fin.ext ?_)
    match a with
    | ⟨0, _⟩ =>
      show win4_1.index t (0 : Fin 2) * 64 + 1 * k.val = k.val
      omega
    | ⟨1, _⟩ =>
      show win4_1.index t (1 : Fin 2) * 32 + 1 * q.val = win4_3.index t (1 : Fin 2) * 32 + 1 * q.val
      omega
  rw [h0, h1]

/-- An index of the array is in the point's block iff each coordinate is in the block's range on its axis. -/
theorem mem_blk (t : Fin cfg4.N) (i : S64x32.Idx) :
    i ∈ ((cfg4.win 3).blk t).view.set ↔ ∀ a : Fin 2, win4_3.index t a * S64x32.size a ≤ (i a).val
      ∧ (i a).val < win4_3.index t a * S64x32.size a + S64x32.size a := by
  show i ∈ ((View.whole main_v75).slice (win4_3.rect t)).set ↔ _
  rw [View.set_slice_whole, Rect.mem_set_unit]
  exact Iff.rfl

/-- The one block is the whole array. -/
theorem cover (i : S64x32.Idx) :
    ∃ t : Fin cfg4.N, (cfg4.win 3).flush t = true ∧ i ∈ ((cfg4.win 3).blk t).view.set := by
  have hi0 : (i 0).val < 64 := (i 0).isLt
  have hi1 : (i 1).val < 32 := (i 1).isLt
  obtain ⟨e0, e1, e2, e3, e4, e5, e6, e7⟩ := idx_facts t4_0
  refine ⟨t4_0, flush4_3 _, ?_⟩
  rw [mem_blk]
  intro a
  match a with
  | ⟨0, _⟩ =>
    show win4_3.index t4_0 (0 : Fin 2) * 64 ≤ (i 0).val ∧ (i 0).val < win4_3.index t4_0 (0 : Fin 2) * 64 + 64
    omega
  | ⟨1, _⟩ =>
    show win4_3.index t4_0 (1 : Fin 2) * 32 ≤ (i 1).val ∧ (i 1).val < win4_3.index t4_0 (1 : Fin 2) * 32 + 32
    omega

/-- The output array after the region. -/
theorem final (c : Dev nD) :
    (dat4 V c).arrAt 3 cfg4.N = Cert.ReferenceIdeal.Net.fc Ideal (V c main_v73) (V c main_arg7) (V c main_v74) :=
  (dat4 V c).arrAt_eq_of_cover 3 _ (fun t _ => flushed_eq V c t) cover

end Cert.KernelIdeal.Region4

end
-- ==== Proof.LibHostPieces.lean ====
/-
  Two facts for reading a long line of host operations piece by piece.

  What a buffer holds after a line of host operations is a fold over the line. When the whole line's result is too
  large a term to compare in one step, the line can be cut at any point: the fold over a concatenation is the fold
  over the second part, started from what the first part leaves (`after_append`); with `List.take_append_drop` this
  cuts a line given as one list into stretches whose results are small terms, each read from any incoming contents.

  An operation spelt over typed references moves its operands from each buffer's own type to the tensor type it
  carries and its result back; these transports are identities, and a value moved to a buffer's type and back is the
  value (`ofBuf_toBuf`). Rewriting with it before comparing a stretch's result with a closed term removes the pairs
  of transports that otherwise stand between the two sides. Both facts hold for any topology, signature and element
  values.
-/
import Idealize.ShloMosaic.Lib.StableHlo.Run

namespace Idealize.ShloMosaic.HostPieces

open Idealize.ShloMosaic Idealize.ShloMosaic.StableHlo

variable {τ : Topo} {sig : RefSig} {Val : EltTy → Type}

/-- Running two stretches of operations one after the other is running their concatenation. -/
theorem after_append (l₁ l₂ : List (HloOp τ sig Val)) (V : Valuation τ sig Val) :
    after (l₁ ++ l₂) V = after l₂ (after l₁ V) := by
  induction l₁ generalizing V with
  | nil => rfl
  | cons op l ih => exact ih _

/-- A line of operations cut at position `n`: the part after `n` run from what the first `n` leave. -/
theorem after_take_drop (n : ℕ) (l : List (HloOp τ sig Val)) (V : Valuation τ sig Val) :
    after l V = after (l.drop n) (after (l.take n) V) := by
  rw [← after_append, List.take_append_drop]

/-- Contents moved to a buffer's own type and back are unchanged. -/
theorem ofBuf_toBuf {T : BufTy} (x : TRef sig T) (v : T.Contents Val) : x.ofBuf (x.toBuf v) = v := by
  obtain ⟨r, rfl, _, _⟩ := x
  rfl

end Idealize.ShloMosaic.HostPieces
-- ==== Proof.LibResultsRest.lean ====
/-
  A finishing step for reading a line of host operations.

  Reading what a buffer holds after a line of operations is a rewriting computation. Done as one simplification
  pass it does not reach the operands of a concatenation, which sit inside a list of (shape, array) pairs; what is
  left there — a short chain of results at an operand's reference — is finished here by rewriting with each
  operation's result at its own reference and at any other reference, one at a time.
-/
import Idealize.ShloMosaic.Lib.StableHlo.Run

namespace Idealize.ShloMosaic.StableHlo

/-- Rewrites every remaining operation result, at its own reference or at another one, until none is left. -/
macro "after_results_rest" : tactic =>
  `(tactic| repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)))

end Idealize.ShloMosaic.StableHlo
-- ==== Proof.Walk.lean ====
/-
  The pipelined program's result as the network of its arguments.

  The run (Proof/KernelRun.lean) ends with the result buffer holding the last of eleven boundary contents, a fold from
  the launch memory through six stretches of host operations and five regions. The fold is read back stretch by
  stretch. A stretch of host operations, from ANY incoming contents, leaves each buffer it writes at the stage of
  Proof/Net.lean it computes of the buffers it reads (`pre_…`, `s1_…`, `s3_…`, `s4_…`), and every other buffer as
  it was (`…_keep_…`). A region leaves its output array at the dense stage of its input arrays as entered
  (Proof/Region0–4.lean) and every other buffer as it was. Chaining these from the launch memory: the edge lists and
  edge weights are computed once before the first region and are still there when the second layer reads them; each
  layer's product, aggregation and bias-and-clamp follow; then the mean over each graph and the last dense layer.
-/
import proofs.«147617_j81080392614195_1_alg».proof.Proof.Gen.KernelIdeal.Frame
import proofs.«147617_j81080392614195_1_alg».proof.Proof.Net
import proofs.«147617_j81080392614195_1_alg».proof.Proof.Region0
import proofs.«147617_j81080392614195_1_alg».proof.Proof.Region1
import proofs.«147617_j81080392614195_1_alg».proof.Proof.Region2
import proofs.«147617_j81080392614195_1_alg».proof.Proof.Region3
import proofs.«147617_j81080392614195_1_alg».proof.Proof.Region4
import proofs.«147617_j81080392614195_1_alg».proof.Proof.LibHostColRow
import proofs.«147617_j81080392614195_1_alg».proof.Proof.LibHostPieces
import proofs.«147617_j81080392614195_1_alg».proof.Proof.LibResultsRest
import Idealize.ShloMosaic.Lib.StableHlo.Run

set_option maxRecDepth 16384

noncomputable section

namespace Cert.KernelIdeal.Walk

open Cert.KernelIdeal Cert.KernelIdeal.Gen Idealize.ShloMosaic Idealize.ShloMosaic.TcCoe Idealize.SL.Sem
open Idealize.ShloMosaic.StableHlo

/-- No operation of the stretch writes the buffer, so it holds what it held. -/
macro "host_kept" : tactic =>
  `(tactic| exact StableHlo.after_of_forall_not_mem _ _ (List.forall_iff_forall_mem.mp (by
      simp only [hostOps0, hostOps0_1, hostOps0_2, hostOps1, hostOps3, hostOps4, List.Forall, StableHlo.nullary_writes,
        StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide))))

/-! ## The stretches of host operations, from any incoming contents -/

section Stretches

variable (W : Valuation τ sig (Elt Ideal))

/-- The first stretch: the edges' sources, -/
theorem p0_src : after hostOps0 W (Proc.devRef .tc main_v3) = Cert.ReferenceIdeal.Net.src Ideal (W (Proc.devRef .tc main_arg1)) := by
  simp only [hostOps0]
  after_results_simp
  after_results_rest
  unfold Cert.ReferenceIdeal.Net.src
  rfl

/-- their targets, -/
theorem p0_dst : after hostOps0 W (Proc.devRef .tc main_v6) = Cert.ReferenceIdeal.Net.dst Ideal (W (Proc.devRef .tc main_arg1)) := by
  simp only [hostOps0]
  after_results_simp
  after_results_rest
  unfold Cert.ReferenceIdeal.Net.dst
  rfl

/-- the nodes' degrees (a scatter-add of ones at the targets), -/
theorem p0_deg : after hostOps0 W (Proc.devRef .tc main_v10) = Cert.ReferenceIdeal.Net.degOf Ideal (after hostOps0 W (Proc.devRef .tc main_v6)) := by
  simp only [hostOps0]
  after_results_simp
  unfold Cert.ReferenceIdeal.Net.degOf
  rfl

/-- where they are positive, -/
theorem p0_gt : after hostOps0 W (Proc.devRef .tc main_v12) = Cert.ReferenceIdeal.Net.gtZero Ideal (after hostOps0 W (Proc.devRef .tc main_v10)) := by
  simp only [hostOps0]
  after_results_simp
  unfold Cert.ReferenceIdeal.Net.gtZero
  rfl

/-- their inverse square roots, -/
theorem p0_rs : after hostOps0 W (Proc.devRef .tc main_v13) = Host.rsqrt (F := Ideal) (s := S100000) (φ := .f32) (after hostOps0 W (Proc.devRef .tc main_v10)) := by
  simp only [hostOps0]
  after_results_simp

/-- and the zero for the other nodes. -/
theorem p0_zero : after hostOps0 W (Proc.devRef .tc main_cst_2) = constant (F := Ideal) S_ .f32 0x00000000#32 := by
  simp only [hostOps0]
  after_results_simp

theorem p0_keep_main_arg0 : after hostOps0 W (Proc.devRef .tc main_arg0) = W (Proc.devRef .tc main_arg0) := by host_kept

theorem p0_keep_main_arg2 : after hostOps0 W (Proc.devRef .tc main_arg2) = W (Proc.devRef .tc main_arg2) := by host_kept

theorem p0_keep_main_arg3 : after hostOps0 W (Proc.devRef .tc main_arg3) = W (Proc.devRef .tc main_arg3) := by host_kept

theorem p0_keep_main_arg4 : after hostOps0 W (Proc.devRef .tc main_arg4) = W (Proc.devRef .tc main_arg4) := by host_kept

theorem p0_keep_main_arg5 : after hostOps0 W (Proc.devRef .tc main_arg5) = W (Proc.devRef .tc main_arg5) := by host_kept

theorem p0_keep_main_arg6 : after hostOps0 W (Proc.devRef .tc main_arg6) = W (Proc.devRef .tc main_arg6) := by host_kept

theorem p0_keep_main_arg7 : after hostOps0 W (Proc.devRef .tc main_arg7) = W (Proc.devRef .tc main_arg7) := by host_kept

theorem p0_keep_main_arg8 : after hostOps0 W (Proc.devRef .tc main_arg8) = W (Proc.devRef .tc main_arg8) := by host_kept

/-- The second stretch chooses between the two (the outlined jnp.where). -/
theorem p1_where : after hostOps0_1 W (Proc.devRef .tc main_v14)
    = Cert.ReferenceIdeal.Net.whereOf Ideal (W (Proc.devRef .tc main_v12)) (W (Proc.devRef .tc main_v13)) (W (Proc.devRef .tc main_cst_2)) := by
  simp only [hostOps0_1]
  after_results_simp
  simp only [HostPieces.ofBuf_toBuf]
  unfold Cert.ReferenceIdeal.Net.whereOf
  rfl

theorem p1_keep_main_v3 : after hostOps0_1 W (Proc.devRef .tc main_v3) = W (Proc.devRef .tc main_v3) := by host_kept

theorem p1_keep_main_v6 : after hostOps0_1 W (Proc.devRef .tc main_v6) = W (Proc.devRef .tc main_v6) := by host_kept

theorem p1_keep_main_arg0 : after hostOps0_1 W (Proc.devRef .tc main_arg0) = W (Proc.devRef .tc main_arg0) := by host_kept

theorem p1_keep_main_arg2 : after hostOps0_1 W (Proc.devRef .tc main_arg2) = W (Proc.devRef .tc main_arg2) := by host_kept

theorem p1_keep_main_arg3 : after hostOps0_1 W (Proc.devRef .tc main_arg3) = W (Proc.devRef .tc main_arg3) := by host_kept

theorem p1_keep_main_arg4 : after hostOps0_1 W (Proc.devRef .tc main_arg4) = W (Proc.devRef .tc main_arg4) := by host_kept

theorem p1_keep_main_arg5 : after hostOps0_1 W (Proc.devRef .tc main_arg5) = W (Proc.devRef .tc main_arg5) := by host_kept

theorem p1_keep_main_arg6 : after hostOps0_1 W (Proc.devRef .tc main_arg6) = W (Proc.devRef .tc main_arg6) := by host_kept

theorem p1_keep_main_arg7 : after hostOps0_1 W (Proc.devRef .tc main_arg7) = W (Proc.devRef .tc main_arg7) := by host_kept

theorem p1_keep_main_arg8 : after hostOps0_1 W (Proc.devRef .tc main_arg8) = W (Proc.devRef .tc main_arg8) := by host_kept

/-- The third stretch: the edges' weights from the node weights at their two ends. -/
theorem p2_norm : after hostOps0_2 W (Proc.devRef .tc main_v29)
    = Cert.ReferenceIdeal.Net.normOf Ideal (W (Proc.devRef .tc main_v14)) (W (Proc.devRef .tc main_v3)) (W (Proc.devRef .tc main_v6)) := by
  simp only [hostOps0_2]
  after_results_simp
  unfold Cert.ReferenceIdeal.Net.normOf Cert.ReferenceIdeal.Net.wrap
  rfl

theorem p2_keep_main_v3 : after hostOps0_2 W (Proc.devRef .tc main_v3) = W (Proc.devRef .tc main_v3) := by host_kept

theorem p2_keep_main_v6 : after hostOps0_2 W (Proc.devRef .tc main_v6) = W (Proc.devRef .tc main_v6) := by host_kept

theorem p2_keep_main_arg0 : after hostOps0_2 W (Proc.devRef .tc main_arg0) = W (Proc.devRef .tc main_arg0) := by host_kept

theorem p2_keep_main_arg2 : after hostOps0_2 W (Proc.devRef .tc main_arg2) = W (Proc.devRef .tc main_arg2) := by host_kept

theorem p2_keep_main_arg3 : after hostOps0_2 W (Proc.devRef .tc main_arg3) = W (Proc.devRef .tc main_arg3) := by host_kept

theorem p2_keep_main_arg4 : after hostOps0_2 W (Proc.devRef .tc main_arg4) = W (Proc.devRef .tc main_arg4) := by host_kept

theorem p2_keep_main_arg5 : after hostOps0_2 W (Proc.devRef .tc main_arg5) = W (Proc.devRef .tc main_arg5) := by host_kept

theorem p2_keep_main_arg6 : after hostOps0_2 W (Proc.devRef .tc main_arg6) = W (Proc.devRef .tc main_arg6) := by host_kept

theorem p2_keep_main_arg7 : after hostOps0_2 W (Proc.devRef .tc main_arg7) = W (Proc.devRef .tc main_arg7) := by host_kept

theorem p2_keep_main_arg8 : after hostOps0_2 W (Proc.devRef .tc main_arg8) = W (Proc.devRef .tc main_arg8) := by host_kept

/-- Before the first region, all three stretches: the edges' sources, -/
theorem pre_src : after hostOps0_2 (after hostOps0_1 (after hostOps0 W)) (Proc.devRef .tc main_v3)
    = Cert.ReferenceIdeal.Net.src Ideal (W (Proc.devRef .tc main_arg1)) :=
  (p2_keep_main_v3 _).trans ((p1_keep_main_v3 _).trans (p0_src W))

/-- their targets, -/
theorem pre_dst : after hostOps0_2 (after hostOps0_1 (after hostOps0 W)) (Proc.devRef .tc main_v6)
    = Cert.ReferenceIdeal.Net.dst Ideal (W (Proc.devRef .tc main_arg1)) :=
  (p2_keep_main_v6 _).trans ((p1_keep_main_v6 _).trans (p0_dst W))

/-- and their weights. -/
theorem pre_norm : after hostOps0_2 (after hostOps0_1 (after hostOps0 W)) (Proc.devRef .tc main_v29)
    = Cert.ReferenceIdeal.Net.norm Ideal (W (Proc.devRef .tc main_arg1)) := by
  refine (p2_norm _).trans ?_
  rw [p1_where, p1_keep_main_v3, p1_keep_main_v6, p0_gt, p0_rs, p0_zero, p0_deg, p0_dst, p0_src]
  rfl

theorem pre_keep_main_arg0 : after hostOps0_2 (after hostOps0_1 (after hostOps0 W)) (Proc.devRef .tc main_arg0) = W (Proc.devRef .tc main_arg0) :=
  (p2_keep_main_arg0 _).trans ((p1_keep_main_arg0 _).trans (p0_keep_main_arg0 W))

theorem pre_keep_main_arg2 : after hostOps0_2 (after hostOps0_1 (after hostOps0 W)) (Proc.devRef .tc main_arg2) = W (Proc.devRef .tc main_arg2) :=
  (p2_keep_main_arg2 _).trans ((p1_keep_main_arg2 _).trans (p0_keep_main_arg2 W))

theorem pre_keep_main_arg3 : after hostOps0_2 (after hostOps0_1 (after hostOps0 W)) (Proc.devRef .tc main_arg3) = W (Proc.devRef .tc main_arg3) :=
  (p2_keep_main_arg3 _).trans ((p1_keep_main_arg3 _).trans (p0_keep_main_arg3 W))

theorem pre_keep_main_arg4 : after hostOps0_2 (after hostOps0_1 (after hostOps0 W)) (Proc.devRef .tc main_arg4) = W (Proc.devRef .tc main_arg4) :=
  (p2_keep_main_arg4 _).trans ((p1_keep_main_arg4 _).trans (p0_keep_main_arg4 W))

theorem pre_keep_main_arg5 : after hostOps0_2 (after hostOps0_1 (after hostOps0 W)) (Proc.devRef .tc main_arg5) = W (Proc.devRef .tc main_arg5) :=
  (p2_keep_main_arg5 _).trans ((p1_keep_main_arg5 _).trans (p0_keep_main_arg5 W))

theorem pre_keep_main_arg6 : after hostOps0_2 (after hostOps0_1 (after hostOps0 W)) (Proc.devRef .tc main_arg6) = W (Proc.devRef .tc main_arg6) :=
  (p2_keep_main_arg6 _).trans ((p1_keep_main_arg6 _).trans (p0_keep_main_arg6 W))

theorem pre_keep_main_arg7 : after hostOps0_2 (after hostOps0_1 (after hostOps0 W)) (Proc.devRef .tc main_arg7) = W (Proc.devRef .tc main_arg7) :=
  (p2_keep_main_arg7 _).trans ((p1_keep_main_arg7 _).trans (p0_keep_main_arg7 W))

theorem pre_keep_main_arg8 : after hostOps0_2 (after hostOps0_1 (after hostOps0 W)) (Proc.devRef .tc main_arg8) = W (Proc.devRef .tc main_arg8) :=
  (p2_keep_main_arg8 _).trans ((p1_keep_main_arg8 _).trans (p0_keep_main_arg8 W))

/-- Between the first two regions: the aggregation of the first product along the edges, -/
theorem s1_agg : after hostOps1 W (Proc.devRef .tc main_v43)
    = Cert.ReferenceIdeal.Net.aggOf Ideal (W (Proc.devRef .tc main_v30)) (W (Proc.devRef .tc main_v3)) (W (Proc.devRef .tc main_v6)) (W (Proc.devRef .tc main_v29)) := by
  simp only [hostOps1]
  after_results_simp
  unfold Cert.ReferenceIdeal.Net.aggOf Cert.ReferenceIdeal.Net.wrap
  rfl

/-- and the first bias as a row: the vector cast to a row is the vector broadcast into it. -/
theorem s1_row : after hostOps1 W (Proc.devRef .tc main_v44) = Cert.ReferenceIdeal.Net.row64 Ideal (W (Proc.devRef .tc main_arg4)) := by
  simp only [hostOps1]
  after_results_simp
  unfold Cert.ReferenceIdeal.Net.row64
  exact HostColRow.row_eq (N := 64) _ _ _

theorem s1_keep_main_v3 : after hostOps1 W (Proc.devRef .tc main_v3) = W (Proc.devRef .tc main_v3) := by host_kept

theorem s1_keep_main_v6 : after hostOps1 W (Proc.devRef .tc main_v6) = W (Proc.devRef .tc main_v6) := by host_kept

theorem s1_keep_main_v29 : after hostOps1 W (Proc.devRef .tc main_v29) = W (Proc.devRef .tc main_v29) := by host_kept

theorem s1_keep_main_arg2 : after hostOps1 W (Proc.devRef .tc main_arg2) = W (Proc.devRef .tc main_arg2) := by host_kept

theorem s1_keep_main_arg5 : after hostOps1 W (Proc.devRef .tc main_arg5) = W (Proc.devRef .tc main_arg5) := by host_kept

theorem s1_keep_main_arg6 : after hostOps1 W (Proc.devRef .tc main_arg6) = W (Proc.devRef .tc main_arg6) := by host_kept

theorem s1_keep_main_arg7 : after hostOps1 W (Proc.devRef .tc main_arg7) = W (Proc.devRef .tc main_arg7) := by host_kept

theorem s1_keep_main_arg8 : after hostOps1 W (Proc.devRef .tc main_arg8) = W (Proc.devRef .tc main_arg8) := by host_kept

/-- Between the third and fourth regions: the same for the second layer. -/
theorem s3_agg : after hostOps3 W (Proc.devRef .tc main_v59)
    = Cert.ReferenceIdeal.Net.aggOf Ideal (W (Proc.devRef .tc main_v46)) (W (Proc.devRef .tc main_v3)) (W (Proc.devRef .tc main_v6)) (W (Proc.devRef .tc main_v29)) := by
  simp only [hostOps3]
  after_results_simp
  unfold Cert.ReferenceIdeal.Net.aggOf Cert.ReferenceIdeal.Net.wrap
  rfl

theorem s3_row : after hostOps3 W (Proc.devRef .tc main_v60) = Cert.ReferenceIdeal.Net.row64 Ideal (W (Proc.devRef .tc main_arg6)) := by
  simp only [hostOps3]
  after_results_simp
  unfold Cert.ReferenceIdeal.Net.row64
  exact HostColRow.row_eq (N := 64) _ _ _

theorem s3_keep_main_arg2 : after hostOps3 W (Proc.devRef .tc main_arg2) = W (Proc.devRef .tc main_arg2) := by host_kept

theorem s3_keep_main_arg7 : after hostOps3 W (Proc.devRef .tc main_arg7) = W (Proc.devRef .tc main_arg7) := by host_kept

theorem s3_keep_main_arg8 : after hostOps3 W (Proc.devRef .tc main_arg8) = W (Proc.devRef .tc main_arg8) := by host_kept

/-- Before the last region: the mean over each graph, -/
theorem s4_pool : after hostOps4 W (Proc.devRef .tc main_v73) = Cert.ReferenceIdeal.Net.pool Ideal (W (Proc.devRef .tc main_v61)) (W (Proc.devRef .tc main_arg2)) := by
  simp only [hostOps4]
  after_results_simp
  unfold Cert.ReferenceIdeal.Net.pool
  rfl

/-- and the last bias as a row. -/
theorem s4_row : after hostOps4 W (Proc.devRef .tc main_v74) = Cert.ReferenceIdeal.Net.row32 Ideal (W (Proc.devRef .tc main_arg8)) := by
  simp only [hostOps4]
  after_results_simp
  unfold Cert.ReferenceIdeal.Net.row32
  exact HostColRow.row_eq (N := 32) _ _ _

theorem s4_keep_main_arg7 : after hostOps4 W (Proc.devRef .tc main_arg7) = W (Proc.devRef .tc main_arg7) := by host_kept

end Stretches

/-! ## The boundary contents, from the launch memory -/

section Chain

variable (m : (ℓ : Loc nD τ sig) → Buf (Elt Ideal) ℓ) (ρ : Dev nD → PrngReg) (c : Dev nD)

/-! ### At the first region's entry -/

theorem w3_src : W3 m ρ c (Proc.devRef .tc main_v3) = Cert.ReferenceIdeal.Net.src Ideal (m ((c : Thread nD τ).loc main_arg1)) := pre_src (W0 m ρ c)
theorem w3_dst : W3 m ρ c (Proc.devRef .tc main_v6) = Cert.ReferenceIdeal.Net.dst Ideal (m ((c : Thread nD τ).loc main_arg1)) := pre_dst (W0 m ρ c)
theorem w3_norm : W3 m ρ c (Proc.devRef .tc main_v29) = Cert.ReferenceIdeal.Net.norm Ideal (m ((c : Thread nD τ).loc main_arg1)) := pre_norm (W0 m ρ c)
theorem w3_arg0 : W3 m ρ c (Proc.devRef .tc main_arg0) = (m ((c : Thread nD τ).loc main_arg0)) := pre_keep_main_arg0 (W0 m ρ c)
theorem w3_arg2 : W3 m ρ c (Proc.devRef .tc main_arg2) = (m ((c : Thread nD τ).loc main_arg2)) := pre_keep_main_arg2 (W0 m ρ c)
theorem w3_arg3 : W3 m ρ c (Proc.devRef .tc main_arg3) = (m ((c : Thread nD τ).loc main_arg3)) := pre_keep_main_arg3 (W0 m ρ c)
theorem w3_arg4 : W3 m ρ c (Proc.devRef .tc main_arg4) = (m ((c : Thread nD τ).loc main_arg4)) := pre_keep_main_arg4 (W0 m ρ c)
theorem w3_arg5 : W3 m ρ c (Proc.devRef .tc main_arg5) = (m ((c : Thread nD τ).loc main_arg5)) := pre_keep_main_arg5 (W0 m ρ c)
theorem w3_arg6 : W3 m ρ c (Proc.devRef .tc main_arg6) = (m ((c : Thread nD τ).loc main_arg6)) := pre_keep_main_arg6 (W0 m ρ c)
theorem w3_arg7 : W3 m ρ c (Proc.devRef .tc main_arg7) = (m ((c : Thread nD τ).loc main_arg7)) := pre_keep_main_arg7 (W0 m ρ c)
theorem w3_arg8 : W3 m ρ c (Proc.devRef .tc main_arg8) = (m ((c : Thread nD τ).loc main_arg8)) := pre_keep_main_arg8 (W0 m ρ c)

/-! ### After the first region: the first layer's product -/

theorem w4_mm : W4 m ρ c (Proc.devRef .tc main_v30) = (Cert.ReferenceIdeal.Net.mm1 Ideal (m ((c : Thread nD τ).loc main_arg0)) (m ((c : Thread nD τ).loc main_arg3))) := by
  refine (W4_arr m ρ c 2).trans ?_
  refine (Region0.final (V3 m ρ) c).trans ?_
  show Cert.ReferenceIdeal.Net.mm1 Ideal (W3 m ρ c (Proc.devRef .tc main_arg0)) (W3 m ρ c (Proc.devRef .tc main_arg3)) = _
  rw [w3_arg0, w3_arg3]
theorem w4_src : W4 m ρ c (Proc.devRef .tc main_v3) = Cert.ReferenceIdeal.Net.src Ideal (m ((c : Thread nD τ).loc main_arg1)) :=
  (W4_of_ne m ρ c main_v3 (by decide)).trans (w3_src m ρ c)
theorem w4_dst : W4 m ρ c (Proc.devRef .tc main_v6) = Cert.ReferenceIdeal.Net.dst Ideal (m ((c : Thread nD τ).loc main_arg1)) :=
  (W4_of_ne m ρ c main_v6 (by decide)).trans (w3_dst m ρ c)
theorem w4_norm : W4 m ρ c (Proc.devRef .tc main_v29) = Cert.ReferenceIdeal.Net.norm Ideal (m ((c : Thread nD τ).loc main_arg1)) :=
  (W4_of_ne m ρ c main_v29 (by decide)).trans (w3_norm m ρ c)
theorem w4_arg2 : W4 m ρ c (Proc.devRef .tc main_arg2) = (m ((c : Thread nD τ).loc main_arg2)) :=
  (W4_of_ne m ρ c main_arg2 (by decide)).trans (w3_arg2 m ρ c)
theorem w4_arg4 : W4 m ρ c (Proc.devRef .tc main_arg4) = (m ((c : Thread nD τ).loc main_arg4)) :=
  (W4_of_ne m ρ c main_arg4 (by decide)).trans (w3_arg4 m ρ c)
theorem w4_arg5 : W4 m ρ c (Proc.devRef .tc main_arg5) = (m ((c : Thread nD τ).loc main_arg5)) :=
  (W4_of_ne m ρ c main_arg5 (by decide)).trans (w3_arg5 m ρ c)
theorem w4_arg6 : W4 m ρ c (Proc.devRef .tc main_arg6) = (m ((c : Thread nD τ).loc main_arg6)) :=
  (W4_of_ne m ρ c main_arg6 (by decide)).trans (w3_arg6 m ρ c)
theorem w4_arg7 : W4 m ρ c (Proc.devRef .tc main_arg7) = (m ((c : Thread nD τ).loc main_arg7)) :=
  (W4_of_ne m ρ c main_arg7 (by decide)).trans (w3_arg7 m ρ c)
theorem w4_arg8 : W4 m ρ c (Proc.devRef .tc main_arg8) = (m ((c : Thread nD τ).loc main_arg8)) :=
  (W4_of_ne m ρ c main_arg8 (by decide)).trans (w3_arg8 m ρ c)

/-! ### After the stretch that follows: its aggregation and the first bias row -/

theorem w5_agg : W5 m ρ c (Proc.devRef .tc main_v43) = (Cert.ReferenceIdeal.Net.agg Ideal (Cert.ReferenceIdeal.Net.mm1 Ideal (m ((c : Thread nD τ).loc main_arg0)) (m ((c : Thread nD τ).loc main_arg3))) (m ((c : Thread nD τ).loc main_arg1))) := by
  refine (s1_agg (W4 m ρ c)).trans ?_
  rw [w4_mm, w4_src, w4_dst, w4_norm]
  rfl
theorem w5_row : W5 m ρ c (Proc.devRef .tc main_v44) = (Cert.ReferenceIdeal.Net.row64 Ideal (m ((c : Thread nD τ).loc main_arg4))) := by
  refine (s1_row (W4 m ρ c)).trans ?_
  rw [w4_arg4]
theorem w5_src : W5 m ρ c (Proc.devRef .tc main_v3) = Cert.ReferenceIdeal.Net.src Ideal (m ((c : Thread nD τ).loc main_arg1)) :=
  (s1_keep_main_v3 (W4 m ρ c)).trans (w4_src m ρ c)
theorem w5_dst : W5 m ρ c (Proc.devRef .tc main_v6) = Cert.ReferenceIdeal.Net.dst Ideal (m ((c : Thread nD τ).loc main_arg1)) :=
  (s1_keep_main_v6 (W4 m ρ c)).trans (w4_dst m ρ c)
theorem w5_norm : W5 m ρ c (Proc.devRef .tc main_v29) = Cert.ReferenceIdeal.Net.norm Ideal (m ((c : Thread nD τ).loc main_arg1)) :=
  (s1_keep_main_v29 (W4 m ρ c)).trans (w4_norm m ρ c)
theorem w5_arg2 : W5 m ρ c (Proc.devRef .tc main_arg2) = (m ((c : Thread nD τ).loc main_arg2)) :=
  (s1_keep_main_arg2 (W4 m ρ c)).trans (w4_arg2 m ρ c)
theorem w5_arg5 : W5 m ρ c (Proc.devRef .tc main_arg5) = (m ((c : Thread nD τ).loc main_arg5)) :=
  (s1_keep_main_arg5 (W4 m ρ c)).trans (w4_arg5 m ρ c)
theorem w5_arg6 : W5 m ρ c (Proc.devRef .tc main_arg6) = (m ((c : Thread nD τ).loc main_arg6)) :=
  (s1_keep_main_arg6 (W4 m ρ c)).trans (w4_arg6 m ρ c)
theorem w5_arg7 : W5 m ρ c (Proc.devRef .tc main_arg7) = (m ((c : Thread nD τ).loc main_arg7)) :=
  (s1_keep_main_arg7 (W4 m ρ c)).trans (w4_arg7 m ρ c)
theorem w5_arg8 : W5 m ρ c (Proc.devRef .tc main_arg8) = (m ((c : Thread nD τ).loc main_arg8)) :=
  (s1_keep_main_arg8 (W4 m ρ c)).trans (w4_arg8 m ρ c)

/-! ### After the second region: the first layer's features -/

theorem w6_h : W6 m ρ c (Proc.devRef .tc main_v45) = (Cert.ReferenceIdeal.Net.biasClamp Ideal (Cert.ReferenceIdeal.Net.agg Ideal (Cert.ReferenceIdeal.Net.mm1 Ideal (m ((c : Thread nD τ).loc main_arg0)) (m ((c : Thread nD τ).loc main_arg3))) (m ((c : Thread nD τ).loc main_arg1))) (Cert.ReferenceIdeal.Net.row64 Ideal (m ((c : Thread nD τ).loc main_arg4)))) := by
  refine (W6_arr m ρ c 2).trans ?_
  refine (Region1.final (V5 m ρ) c).trans ?_
  show Cert.ReferenceIdeal.Net.biasClamp Ideal (W5 m ρ c (Proc.devRef .tc main_v43)) (W5 m ρ c (Proc.devRef .tc main_v44)) = _
  rw [w5_agg, w5_row]
theorem w6_src : W6 m ρ c (Proc.devRef .tc main_v3) = Cert.ReferenceIdeal.Net.src Ideal (m ((c : Thread nD τ).loc main_arg1)) :=
  (W6_of_ne m ρ c main_v3 (by decide)).trans (w5_src m ρ c)
theorem w6_dst : W6 m ρ c (Proc.devRef .tc main_v6) = Cert.ReferenceIdeal.Net.dst Ideal (m ((c : Thread nD τ).loc main_arg1)) :=
  (W6_of_ne m ρ c main_v6 (by decide)).trans (w5_dst m ρ c)
theorem w6_norm : W6 m ρ c (Proc.devRef .tc main_v29) = Cert.ReferenceIdeal.Net.norm Ideal (m ((c : Thread nD τ).loc main_arg1)) :=
  (W6_of_ne m ρ c main_v29 (by decide)).trans (w5_norm m ρ c)
theorem w6_arg2 : W6 m ρ c (Proc.devRef .tc main_arg2) = (m ((c : Thread nD τ).loc main_arg2)) :=
  (W6_of_ne m ρ c main_arg2 (by decide)).trans (w5_arg2 m ρ c)
theorem w6_arg5 : W6 m ρ c (Proc.devRef .tc main_arg5) = (m ((c : Thread nD τ).loc main_arg5)) :=
  (W6_of_ne m ρ c main_arg5 (by decide)).trans (w5_arg5 m ρ c)
theorem w6_arg6 : W6 m ρ c (Proc.devRef .tc main_arg6) = (m ((c : Thread nD τ).loc main_arg6)) :=
  (W6_of_ne m ρ c main_arg6 (by decide)).trans (w5_arg6 m ρ c)
theorem w6_arg7 : W6 m ρ c (Proc.devRef .tc main_arg7) = (m ((c : Thread nD τ).loc main_arg7)) :=
  (W6_of_ne m ρ c main_arg7 (by decide)).trans (w5_arg7 m ρ c)
theorem w6_arg8 : W6 m ρ c (Proc.devRef .tc main_arg8) = (m ((c : Thread nD τ).loc main_arg8)) :=
  (W6_of_ne m ρ c main_arg8 (by decide)).trans (w5_arg8 m ρ c)

/-! ### After the third region: the second layer's product -/

theorem w7_mm : W7 m ρ c (Proc.devRef .tc main_v46) = (Cert.ReferenceIdeal.Net.mm2 Ideal (Cert.ReferenceIdeal.Net.biasClamp Ideal (Cert.ReferenceIdeal.Net.agg Ideal (Cert.ReferenceIdeal.Net.mm1 Ideal (m ((c : Thread nD τ).loc main_arg0)) (m ((c : Thread nD τ).loc main_arg3))) (m ((c : Thread nD τ).loc main_arg1))) (Cert.ReferenceIdeal.Net.row64 Ideal (m ((c : Thread nD τ).loc main_arg4)))) (m ((c : Thread nD τ).loc main_arg5))) := by
  refine (W7_arr m ρ c 2).trans ?_
  refine (Region2.final (V6 m ρ) c).trans ?_
  show Cert.ReferenceIdeal.Net.mm2 Ideal (W6 m ρ c (Proc.devRef .tc main_v45)) (W6 m ρ c (Proc.devRef .tc main_arg5)) = _
  rw [w6_h, w6_arg5]
theorem w7_src : W7 m ρ c (Proc.devRef .tc main_v3) = Cert.ReferenceIdeal.Net.src Ideal (m ((c : Thread nD τ).loc main_arg1)) :=
  (W7_of_ne m ρ c main_v3 (by decide)).trans (w6_src m ρ c)
theorem w7_dst : W7 m ρ c (Proc.devRef .tc main_v6) = Cert.ReferenceIdeal.Net.dst Ideal (m ((c : Thread nD τ).loc main_arg1)) :=
  (W7_of_ne m ρ c main_v6 (by decide)).trans (w6_dst m ρ c)
theorem w7_norm : W7 m ρ c (Proc.devRef .tc main_v29) = Cert.ReferenceIdeal.Net.norm Ideal (m ((c : Thread nD τ).loc main_arg1)) :=
  (W7_of_ne m ρ c main_v29 (by decide)).trans (w6_norm m ρ c)
theorem w7_arg2 : W7 m ρ c (Proc.devRef .tc main_arg2) = (m ((c : Thread nD τ).loc main_arg2)) :=
  (W7_of_ne m ρ c main_arg2 (by decide)).trans (w6_arg2 m ρ c)
theorem w7_arg6 : W7 m ρ c (Proc.devRef .tc main_arg6) = (m ((c : Thread nD τ).loc main_arg6)) :=
  (W7_of_ne m ρ c main_arg6 (by decide)).trans (w6_arg6 m ρ c)
theorem w7_arg7 : W7 m ρ c (Proc.devRef .tc main_arg7) = (m ((c : Thread nD τ).loc main_arg7)) :=
  (W7_of_ne m ρ c main_arg7 (by decide)).trans (w6_arg7 m ρ c)
theorem w7_arg8 : W7 m ρ c (Proc.devRef .tc main_arg8) = (m ((c : Thread nD τ).loc main_arg8)) :=
  (W7_of_ne m ρ c main_arg8 (by decide)).trans (w6_arg8 m ρ c)

/-! ### After the stretch that follows: its aggregation and the second bias row -/

theorem w8_agg : W8 m ρ c (Proc.devRef .tc main_v59) = (Cert.ReferenceIdeal.Net.agg Ideal (Cert.ReferenceIdeal.Net.mm2 Ideal (Cert.ReferenceIdeal.Net.biasClamp Ideal (Cert.ReferenceIdeal.Net.agg Ideal (Cert.ReferenceIdeal.Net.mm1 Ideal (m ((c : Thread nD τ).loc main_arg0)) (m ((c : Thread nD τ).loc main_arg3))) (m ((c : Thread nD τ).loc main_arg1))) (Cert.ReferenceIdeal.Net.row64 Ideal (m ((c : Thread nD τ).loc main_arg4)))) (m ((c : Thread nD τ).loc main_arg5))) (m ((c : Thread nD τ).loc main_arg1))) := by
  refine (s3_agg (W7 m ρ c)).trans ?_
  rw [w7_mm, w7_src, w7_dst, w7_norm]
  rfl
theorem w8_row : W8 m ρ c (Proc.devRef .tc main_v60) = (Cert.ReferenceIdeal.Net.row64 Ideal (m ((c : Thread nD τ).loc main_arg6))) := by
  refine (s3_row (W7 m ρ c)).trans ?_
  rw [w7_arg6]
theorem w8_arg2 : W8 m ρ c (Proc.devRef .tc main_arg2) = (m ((c : Thread nD τ).loc main_arg2)) :=
  (s3_keep_main_arg2 (W7 m ρ c)).trans (w7_arg2 m ρ c)
theorem w8_arg7 : W8 m ρ c (Proc.devRef .tc main_arg7) = (m ((c : Thread nD τ).loc main_arg7)) :=
  (s3_keep_main_arg7 (W7 m ρ c)).trans (w7_arg7 m ρ c)
theorem w8_arg8 : W8 m ρ c (Proc.devRef .tc main_arg8) = (m ((c : Thread nD τ).loc main_arg8)) :=
  (s3_keep_main_arg8 (W7 m ρ c)).trans (w7_arg8 m ρ c)

/-! ### After the fourth region: the second layer's features -/

theorem w9_h : W9 m ρ c (Proc.devRef .tc main_v61) = (Cert.ReferenceIdeal.Net.biasClamp Ideal (Cert.ReferenceIdeal.Net.agg Ideal (Cert.ReferenceIdeal.Net.mm2 Ideal (Cert.ReferenceIdeal.Net.biasClamp Ideal (Cert.ReferenceIdeal.Net.agg Ideal (Cert.ReferenceIdeal.Net.mm1 Ideal (m ((c : Thread nD τ).loc main_arg0)) (m ((c : Thread nD τ).loc main_arg3))) (m ((c : Thread nD τ).loc main_arg1))) (Cert.ReferenceIdeal.Net.row64 Ideal (m ((c : Thread nD τ).loc main_arg4)))) (m ((c : Thread nD τ).loc main_arg5))) (m ((c : Thread nD τ).loc main_arg1))) (Cert.ReferenceIdeal.Net.row64 Ideal (m ((c : Thread nD τ).loc main_arg6)))) := by
  refine (W9_arr m ρ c 2).trans ?_
  refine (Region3.final (V8 m ρ) c).trans ?_
  show Cert.ReferenceIdeal.Net.biasClamp Ideal (W8 m ρ c (Proc.devRef .tc main_v59)) (W8 m ρ c (Proc.devRef .tc main_v60)) = _
  rw [w8_agg, w8_row]
theorem w9_arg2 : W9 m ρ c (Proc.devRef .tc main_arg2) = (m ((c : Thread nD τ).loc main_arg2)) :=
  (W9_of_ne m ρ c main_arg2 (by decide)).trans (w8_arg2 m ρ c)
theorem w9_arg7 : W9 m ρ c (Proc.devRef .tc main_arg7) = (m ((c : Thread nD τ).loc main_arg7)) :=
  (W9_of_ne m ρ c main_arg7 (by decide)).trans (w8_arg7 m ρ c)
theorem w9_arg8 : W9 m ρ c (Proc.devRef .tc main_arg8) = (m ((c : Thread nD τ).loc main_arg8)) :=
  (W9_of_ne m ρ c main_arg8 (by decide)).trans (w8_arg8 m ρ c)

/-! ### After the last stretch: the pooled features and the last bias row -/

theorem w10_pool : W10 m ρ c (Proc.devRef .tc main_v73) = (Cert.ReferenceIdeal.Net.pool Ideal (Cert.ReferenceIdeal.Net.biasClamp Ideal (Cert.ReferenceIdeal.Net.agg Ideal (Cert.ReferenceIdeal.Net.mm2 Ideal (Cert.ReferenceIdeal.Net.biasClamp Ideal (Cert.ReferenceIdeal.Net.agg Ideal (Cert.ReferenceIdeal.Net.mm1 Ideal (m ((c : Thread nD τ).loc main_arg0)) (m ((c : Thread nD τ).loc main_arg3))) (m ((c : Thread nD τ).loc main_arg1))) (Cert.ReferenceIdeal.Net.row64 Ideal (m ((c : Thread nD τ).loc main_arg4)))) (m ((c : Thread nD τ).loc main_arg5))) (m ((c : Thread nD τ).loc main_arg1))) (Cert.ReferenceIdeal.Net.row64 Ideal (m ((c : Thread nD τ).loc main_arg6)))) (m ((c : Thread nD τ).loc main_arg2))) := by
  refine (s4_pool (W9 m ρ c)).trans ?_
  rw [w9_h, w9_arg2]
theorem w10_row : W10 m ρ c (Proc.devRef .tc main_v74) = (Cert.ReferenceIdeal.Net.row32 Ideal (m ((c : Thread nD τ).loc main_arg8))) := by
  refine (s4_row (W9 m ρ c)).trans ?_
  rw [w9_arg8]
theorem w10_arg7 : W10 m ρ c (Proc.devRef .tc main_arg7) = (m ((c : Thread nD τ).loc main_arg7)) :=
  (s4_keep_main_arg7 (W9 m ρ c)).trans (w9_arg7 m ρ c)

/-! ### After the last region: the result -/

/-- The result buffer at the last boundary holds the network of the arguments as launched. -/
theorem result_eq : W11 m ρ c (Proc.devRef .tc main_v75)
    = Cert.ReferenceIdeal.Net.out Ideal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W11_arr m ρ c 3).trans ?_
  refine (Region4.final (V10 m ρ) c).trans ?_
  show Cert.ReferenceIdeal.Net.fc Ideal (W10 m ρ c (Proc.devRef .tc main_v73)) (W10 m ρ c (Proc.devRef .tc main_arg7)) (W10 m ρ c (Proc.devRef .tc main_v74)) = _
  rw [w10_pool, w10_arg7, w10_row]
  rfl

end Chain

end Cert.KernelIdeal.Walk

end
-- ==== Proof.lean ====
/-
  A two-layer graph convolution network with mean pooling and a final dense layer, computed two ways on the extended
  reals: by a pipelined program whose three dense stages (the layers' products, their bias-and-clamp, the last layer)
  run tile by tile in five regions between stretches of host operations, and by a reference made of host operations
  only. Both compute the network of Proof/Net.lean of their arguments:

    out = relu (mean_pool (h₂) · Wfc + bfc),   hₗ = relu (Â (hₗ₋₁ · Wₗ) + bₗ),   h₀ = x,

  where Â sends features along the edges (self loops added) weighted by the inverse square roots of the degrees of
  the two ends. Tile by tile or whole, on rounded operands or not, a dense stage has the same entries on the extended
  reals (Proof/Layers.lean, Proof/Region0–4.lean); the host stages are the same operations in both programs; so the
  two results are one term of the arguments and no property of the inputs is used. The reference recomputes the edge
  weights for the second layer, the pipelined program keeps them; they are the same term.

  The frames of the two pipelined programs are the generated ones; the reference's frame is its run with the result
  dropped; the idealized program is the printed program read on the extended reals, no operation rewritten.
-/
import proofs.«147617_j81080392614195_1_alg».proof.Defs
import proofs.«147617_j81080392614195_1_alg».proof.Proof.Gen.Kernel
import proofs.«147617_j81080392614195_1_alg».proof.Proof.Gen.Kernel.Skeleton
import proofs.«147617_j81080392614195_1_alg».proof.Proof.Gen.Kernel.Launch
import proofs.«147617_j81080392614195_1_alg».proof.Proof.Gen.Kernel.Points
import proofs.«147617_j81080392614195_1_alg».proof.Proof.Gen.Kernel.Frame
import proofs.«147617_j81080392614195_1_alg».proof.Proof.Gen.KernelIdeal
import proofs.«147617_j81080392614195_1_alg».proof.Proof.Gen.KernelIdeal.Skeleton
import proofs.«147617_j81080392614195_1_alg».proof.Proof.Gen.KernelIdeal.Launch
import proofs.«147617_j81080392614195_1_alg».proof.Proof.Gen.KernelIdeal.Points
import proofs.«147617_j81080392614195_1_alg».proof.Proof.Gen.KernelIdeal.Frame
import proofs.«147617_j81080392614195_1_alg».proof.Proof.Gen.ReferenceIdeal
import proofs.«147617_j81080392614195_1_alg».proof.Proof.Gen.Pre_finite_inputs
import proofs.«147617_j81080392614195_1_alg».proof.Proof.RefRun
import proofs.«147617_j81080392614195_1_alg».proof.Proof.RefValue
import proofs.«147617_j81080392614195_1_alg».proof.Proof.KernelRun
import proofs.«147617_j81080392614195_1_alg».proof.Proof.Walk
import Idealize.ShloMosaic.Adequacy
import Idealize.ShloMosaic.Init

noncomputable section

namespace Cert.Proof

open Idealize.ShloMosaic Idealize.SL.Sem

/-- The printed program runs and leaves its arguments as launched. -/
theorem frame_k : @Cert.frame_Kernel Cert.Kernel.Gen.facts Cert.Pre_finite_inputs.Gen.facts :=
  fun m ρ _ => Cert.Kernel.Gen.frame m ρ

/-- So does its reading on the extended reals. -/
theorem frame_ki : @Cert.frame_KernelIdeal Cert.KernelIdeal.Gen.facts Cert.Pre_finite_inputs.Gen.facts :=
  fun m ρ _ => Cert.KernelIdeal.Gen.frame m ρ

/-- The reference's run, its result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.ValueP.run (F := Ideal) m ρ)

/-- Both programs end with the network of the arguments in their result buffers. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.ReferenceIdeal.Net.out Ideal (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Walk.result_eq m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.ValueP.run (F := Ideal) m' ρ')
    refine (Cert.ReferenceIdeal.RefValue.res_eq m' c).trans ?_
    obtain ⟨a0, a1, a2, a3, a4, a5, a6, a7, a8⟩ := hagree c
    rw [a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
